-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x2 : Shape := ⟨2, ![2000000, 2]⟩
abbrev S4000000x3 : Shape := ⟨2, ![4000000, 3]⟩
abbrev S6x8 : Shape := ⟨2, ![6, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S_ : Shape := ⟨0, ![]⟩

class Facts : Prop where
  bcast_S_S2000000x2 : S_.BroadcastsInDim S2000000x2 (![] : Fin 0 → Fin S2000000x2.rank)
  reducesTo_S2000000x2_S_d0_1 : S2000000x2.ReducesTo [0, 1] S_
  h_S_ : 0 < S_.numel
  bcast_S_S6x8 : S_.BroadcastsInDim S6x8 (![] : Fin 0 → Fin S6x8.rank)
  reducesTo_S6x8_S_d0_1 : S6x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S8x3 .f32) (main_arg9 : FVec F S3 .f32) (main_v33 : IVec S_ 1) : IVec S_ 1 :=
  let main_v34 : FVec F S8x3 .f32 := Host.absf main_arg8
  let main_cst_12 : FVec F S_ .f32 := constant S_ .f32 0x7F800000#32
  let main_v35 : FVec F S8x3 .f32 := broadcastInDim S8x3 ![] bcast_S_S8x3 main_cst_12
  let main_v36 : IVec S8x3 1 := cmpf .olt main_v34 main_v35
  let main_c_13 : IVec S_ 1 := constantI S_ 1 1#1
  let main_v37 : IVec S_ 1 := (fun x v => Host.reduce IntOp.andi x v reducesTo_S8x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S8 .f32) (main_arg6 : FVec F S8x8 .f32) (main_arg7 : FVec F S8 .f32) (main_arg8 : FVec F S8x3 .f32) (main_arg9 : FVec F S3 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg6
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_v33

def fn {F : FTy → Type} [FloatOps F] (main_arg0 : FVec F S2000000x2 .f32) (main_arg1 : IVec S4000000x3 32) (main_arg2 : FVec F S6x8 .f32) (main_arg3 : FVec F S8 .f32) (main_arg4 : FVec F S8x8 .f32) (main_arg5 : FVec F S8 .f32) (main_arg6 : FVec F S8x8 .f32) (main_arg7 : FVec F S8 .f32) (main_arg8 : FVec F S8x3 .f32) (main_arg9 : FVec F S3 .f32) : IVec S_ 1 :=
  let main_v0 : FVec F S2000000x2 .f32 := Host.absf main_arg0
  let main_cst : FVec F S_ .f32 := constant S_ .f32 0x7F800000#32
  let main_v1 : FVec F S2000000x2 .f32 := broadcastInDim S2000000x2 ![] bcast_S_S2000000x2 main_cst
  let main_v2 : IVec S2000000x2 1 := cmpf .olt main_v0 main_v1
  let main_c : IVec S_ 1 := constantI S_ 1 1#1
  let main_v3 : IVec S_ 1 := (fun x v => Host.reduce IntOp.andi x v reducesTo_S2000000x2_S_d0_1 h_S_) main_v2 main_c
  let main_v4 : FVec F S6x8 .f32 := Host.absf main_arg2
  let main_cst_0 : FVec F S_ .f32 := constant S_ .f32 0x7F800000#32
  let main_v5 : FVec F S6x8 .f32 := broadcastInDim S6x8 ![] bcast_S_S6x8 main_cst_0
  let main_v6 : IVec S6x8 1 := cmpf .olt main_v4 main_v5
  let main_c_1 : IVec S_ 1 := constantI S_ 1 1#1
  let main_v7 : IVec S_ 1 := (fun x v => Host.reduce IntOp.andi x v reducesTo_S6x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg4
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg5 main_arg6 main_arg7 main_arg8 main_arg9 main_v13 main_v16
-- ==== Kernel.lean ====
abbrev S2000000x2 : Shape := ⟨2, ![2000000, 2]⟩
abbrev S4000000x3 : Shape := ⟨2, ![4000000, 3]⟩
abbrev S6x8 : Shape := ⟨2, ![6, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S4000000x1 : Shape := ⟨2, ![4000000, 1]⟩
abbrev S4000000 : Shape := ⟨1, ![4000000]⟩
abbrev S2000000x1 : Shape := ⟨2, ![2000000, 1]⟩
abbrev S2000000 : Shape := ⟨1, ![2000000]⟩
abbrev S_ : Shape := ⟨0, ![]⟩
abbrev S1x4000000 : Shape := ⟨2, ![1, 4000000]⟩
abbrev S6x4000000 : Shape := ⟨2, ![6, 4000000]⟩
abbrev S8x6 : Shape := ⟨2, ![8, 6]⟩
abbrev S3x8 : Shape := ⟨2, ![3, 8]⟩
abbrev S8x1 : Shape := ⟨2, ![8, 1]⟩
abbrev S3x1 : Shape := ⟨2, ![3, 1]⟩
abbrev S3x4000000 : Shape := ⟨2, ![3, 4000000]⟩
abbrev S6x160000 : Shape := ⟨2, ![6, 160000]⟩
abbrev S3x160000 : Shape := ⟨2, ![3, 160000]⟩
abbrev S8x160000 : Shape := ⟨2, ![8, 160000]⟩

abbrev nBuf : Space → Nat
  | .hbm => 111
  | .vmem => 12
  | .smem => 0
  | _ => 0

abbrev bufTy : (tb : Table) → Fin (tcTables nBuf tb) → BufTy
  | .hbm, ⟨0, _⟩ => ⟨S2000000x2, .f32⟩
  | .hbm, ⟨1, _⟩ => ⟨S4000000x3, .i32⟩
  | .hbm, ⟨2, _⟩ => ⟨S6x8, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S8x3, .f32⟩
  | .hbm, ⟨9, _⟩ => ⟨S3, .f32⟩
  | .hbm, ⟨10, _⟩ => ⟨S4000000x1, .i32⟩
  | .hbm, ⟨11, _⟩ => ⟨S4000000, .i32⟩
  | .hbm, ⟨12, _⟩ => ⟨S4000000x1, .i32⟩
  | .hbm, ⟨13, _⟩ => ⟨S4000000, .i32⟩
  | .hbm, ⟨14, _⟩ => ⟨S4000000x1, .i32⟩
  | .hbm, ⟨15, _⟩ => ⟨S4000000, .i32⟩
  | .hbm, ⟨16, _⟩ => ⟨S2000000x1, .f32⟩
  | .hbm, ⟨17, _⟩ => ⟨S2000000, .f32⟩
  | .hbm, ⟨18, _⟩ => ⟨S2000000x1, .f32⟩
  | .hbm, ⟨19, _⟩ => ⟨S2000000, .f32⟩
  | .hbm, ⟨20, _⟩ => ⟨S_, .i32⟩
  | .hbm, ⟨21, _⟩ => ⟨S4000000, .i32⟩
  | .hbm, ⟨22, _⟩ => ⟨S4000000, .i1⟩
  | .hbm, ⟨23, _⟩ => ⟨S_, .i32⟩
  | .hbm, ⟨24, _⟩ => ⟨S4000000, .i32⟩
  | .hbm, ⟨25, _⟩ => ⟨S4000000, .i32⟩
  | .hbm, ⟨26, _⟩ => ⟨S4000000, .i32⟩
  | .hbm, ⟨27, _⟩ => ⟨S4000000x1, .i32⟩
  | .hbm, ⟨28, _⟩ => ⟨S4000000, .f32⟩
  | .hbm, ⟨29, _⟩ => ⟨S_, .i32⟩
  | .hbm, ⟨30, _⟩ => ⟨S4000000, .i32⟩
  | .hbm, ⟨31, _⟩ => ⟨S4000000, .i1⟩
  | .hbm, ⟨32, _⟩ => ⟨S_, .i32⟩
  | .hbm, ⟨33, _⟩ => ⟨S4000000, .i32⟩
  | .hbm, ⟨34, _⟩ => ⟨S4000000, .i32⟩
  | .hbm, ⟨35, _⟩ => ⟨S4000000, .i32⟩
  | .hbm, ⟨36, _⟩ => ⟨S4000000x1, .i32⟩
  | .hbm, ⟨37, _⟩ => ⟨S4000000, .f32⟩
  | .hbm, ⟨38, _⟩ => ⟨S_, .i32⟩
  | .hbm, ⟨39, _⟩ => ⟨S4000000, .i32⟩
  | .hbm, ⟨40, _⟩ => ⟨S4000000, .i1⟩
  | .hbm, ⟨41, _⟩ => ⟨S_, .i32⟩
  | .hbm, ⟨42, _⟩ => ⟨S4000000, .i32⟩
  | .hbm, ⟨43, _⟩ => ⟨S4000000, .i32⟩
  | .hbm, ⟨44, _⟩ => ⟨S4000000, .i32⟩
  | .hbm, ⟨45, _⟩ => ⟨S4000000x1, .i32⟩
  | .hbm, ⟨46, _⟩ => ⟨S4000000, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S4000000, .f32⟩
  | .hbm, ⟨56, _⟩ => ⟨S_, .i32⟩
  | .hbm, ⟨57, _⟩ => ⟨S4000000, .i32⟩
  | .hbm, ⟨58, _⟩ => ⟨S4000000, .i1⟩
  | .hbm, ⟨59, _⟩ => ⟨S_, .i32⟩
  | .hbm, ⟨60, _⟩ => ⟨S4000000, .i32⟩
  | .hbm, ⟨61, _⟩ => ⟨S4000000, .i32⟩
  | .hbm, ⟨62, _⟩ => ⟨S4000000, .i32⟩
  | .hbm, ⟨63, _⟩ => ⟨S4000000x1, .i32⟩
  | .hbm, ⟨64, _⟩ => ⟨S4000000, .f32⟩
  | .hbm, ⟨65, _⟩ => ⟨S_, .i32⟩
  | .hbm, ⟨66, _⟩ => ⟨S4000000, .i32⟩
  | .hbm, ⟨67, _⟩ => ⟨S4000000, .i1⟩
  | .hbm, ⟨68, _⟩ => ⟨S_, .i32⟩
  | .hbm, ⟨69, _⟩ => ⟨S4000000, .i32⟩
  | .hbm, ⟨70, _⟩ => ⟨S4000000, .i32⟩
  | .hbm, ⟨71, _⟩ => ⟨S4000000, .i32⟩
  | .hbm, ⟨72, _⟩ => ⟨S4000000x1, .i32⟩
  | .hbm, ⟨73, _⟩ => ⟨S4000000, .f32⟩
  | .hbm, ⟨74, _⟩ => ⟨S1x4000000, .f32⟩
  | .hbm, ⟨75, _⟩ => ⟨S1x4000000, .f32⟩
  | .hbm, ⟨76, _⟩ => ⟨S1x4000000, .f32⟩
  | .hbm, ⟨77, _⟩ => ⟨S1x4000000, .f32⟩
  | .hbm, ⟨78, _⟩ => ⟨S1x4000000, .f32⟩
  | .hbm, ⟨79, _⟩ => ⟨S1x4000000, .f32⟩
  | .hbm, ⟨80, _⟩ => ⟨S6x4000000, .f32⟩
  | .hbm, ⟨81, _⟩ => ⟨S6x4000000, .bf16⟩
  | .hbm, ⟨82, _⟩ => ⟨S8x6, .f32⟩
  | .hbm, ⟨83, _⟩ => ⟨S8x8, .f32⟩
  | .hbm, ⟨84, _⟩ => ⟨S8x8, .f32⟩
  | .hbm, ⟨85, _⟩ => ⟨S3x8, .f32⟩
  | .hbm, ⟨86, _⟩ => ⟨S8x1, .f32⟩
  | .hbm, ⟨87, _⟩ => ⟨S8x1, .f32⟩
  | .hbm, ⟨88, _⟩ => ⟨S8x1, .f32⟩
  | .hbm, ⟨89, _⟩ => ⟨S3x1, .f32⟩
  | .hbm, ⟨90, _⟩ => ⟨S3x4000000, .f32⟩
  | .hbm, ⟨91, _⟩ => ⟨S1x4000000, .f32⟩
  | .hbm, ⟨92, _⟩ => ⟨S4000000, .f32⟩
  | .hbm, ⟨93, _⟩ => ⟨S1x4000000, .f32⟩
  | .hbm, ⟨94, _⟩ => ⟨S4000000, .f32⟩
  | .hbm, ⟨95, _⟩ => ⟨S1x4000000, .f32⟩
  | .hbm, ⟨96, _⟩ => ⟨S4000000, .f32⟩
  | .hbm, ⟨97, _⟩ => ⟨S_, .f32⟩
  | .hbm, ⟨98, _⟩ => ⟨S2000000, .f32⟩
  | .hbm, ⟨99, _⟩ => ⟨S4000000x1, .i32⟩
  | .hbm, ⟨100, _⟩ => ⟨S2000000, .f32⟩
  | .hbm, ⟨101, _⟩ => ⟨S_, .f32⟩
  | .hbm, ⟨102, _⟩ => ⟨S2000000, .f32⟩
  | .hbm, ⟨103, _⟩ => ⟨S4000000x1, .i32⟩
  | .hbm, ⟨104, _⟩ => ⟨S2000000, .f32⟩
  | .hbm, ⟨105, _⟩ => ⟨S_, .f32⟩
  | .hbm, ⟨106, _⟩ => ⟨S2000000, .f32⟩
  | .hbm, ⟨107, _⟩ => ⟨S4000000x1, .i32⟩
  | .hbm, ⟨108, _⟩ => ⟨S2000000, .f32⟩
  | .hbm, ⟨109, _⟩ => ⟨S2000000, .f32⟩
  | .hbm, ⟨110, _⟩ => ⟨S2000000, .f32⟩
  | .local _ .vmem, ⟨0, _⟩ => ⟨S6x160000, .bf16⟩
  | .local _ .vmem, ⟨1, _⟩ => ⟨S6x160000, .bf16⟩
  | .local _ .vmem, ⟨2, _⟩ => ⟨S8x6, .f32⟩
  | .local _ .vmem, ⟨3, _⟩ => ⟨S8x1, .f32⟩
  | .local _ .vmem, ⟨4, _⟩ => ⟨S8x8, .f32⟩
  | .local _ .vmem, ⟨5, _⟩ => ⟨S8x1, .f32⟩
  | .local _ .vmem, ⟨6, _⟩ => ⟨S8x8, .f32⟩
  | .local _ .vmem, ⟨7, _⟩ => ⟨S8x1, .f32⟩
  | .local _ .vmem, ⟨8, _⟩ => ⟨S3x8, .f32⟩
  | .local _ .vmem, ⟨9, _⟩ => ⟨S3x1, .f32⟩
  | .local _ .vmem, ⟨10, _⟩ => ⟨S3x160000, .f32⟩
  | .local _ .vmem, ⟨11, _⟩ => ⟨S3x160000, .f32⟩
  | _, _ => ⟨S2000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_11 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x160000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x160000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000_S1x4000000_1 : S4000000.BroadcastsInDim S1x4000000 (![1] : Fin 1 → Fin S1x4000000.rank)
  concatenates_S1x4000000_S1x4000000_S1x4000000_S1x4000000_S1x4000000_S1x4000000_S6x4000000_d0 : Shape.Concatenates [S1x4000000, S1x4000000, S1x4000000, S1x4000000, S1x4000000, S1x4000000] S6x4000000 0
  bitsLt_bf16_f32 : FTy.bits .bf16 < FTy.bits .f32
  transposes_S6x8_S8x6_1_0 : S6x8.Transposes [1, 0] S8x6
  transposes_S8x8_S8x8_1_0 : S8x8.Transposes [1, 0] S8x8
  transposes_S8x3_S3x8_1_0 : S8x3.Transposes [1, 0] S3x8
  shapeCasts_S8_S8x1 : S8.ShapeCasts S8x1
  shapeCasts_S3_S3x1 : S3.ShapeCasts S3x1
  inb_S6x160000_S6x160000_0_0 : ∀ a, (![0, 0] : Fin 2 → Nat) a + S6x160000.size a ≤ S6x160000.size a
  h_S6x160000 : 0 < S6x160000.numel
  shapeCasts_S6x160000_S6x160000 : S6x160000.ShapeCasts S6x160000
  inb_S8x6_S8x6_0_0 : ∀ a, (![0, 0] : Fin 2 → Nat) a + S8x6.size a ≤ S8x6.size a
  h_S8x6 : 0 < S8x6.numel
  shapeCasts_S8x6_S8x6 : S8x6.ShapeCasts S8x6
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x160000 : S8x1.Broadcasts S8x160000
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S3x8_S3x8_0_0 : ∀ a, (![0, 0] : Fin 2 → Nat) a + S3x8.size a ≤ S3x8.size a
  h_S3x8 : 0 < S3x8.numel
  shapeCasts_S3x8_S3x8 : S3x8.ShapeCasts S3x8
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x160000 : S3x1.Broadcasts S3x160000
  inb_S3x160000_S3x160000_0_0 : ∀ a, (![0, 0] : Fin 2 → Nat) a + S3x160000.size a ≤ S3x160000.size a
  h_S3x160000 : 0 < S3x160000.numel
  slices_S3x4000000_S1x4000000_0_0 : S3x4000000.Slices ![0, 0] S1x4000000
  shapeCasts_S1x4000000_S4000000 : S1x4000000.ShapeCasts S4000000
  slices_S3x4000000_S1x4000000_1_0 : S3x4000000.Slices ![1, 0] S1x4000000
  slices_S3x4000000_S1x4000000_2_0 : S3x4000000.Slices ![2, 0] S1x4000000
  bcast_S_S2000000 : S_.BroadcastsInDim S2000000 (![] : Fin 0 → Fin S2000000.rank)
  gather_S2000000_S4000000x1_S4000000_n_0_n_n_0_1_1_wf : GatherDims.WF S2000000 S4000000x1 S4000000 [] [0] [] [0] [] 1 ![1]
  dot_S8x6_S6x160000_S8x160000_1_0_0_1_n_n_wf : DotDims.WF S8x6 S6x160000 S8x160000 [1] [0] [0] [1] [] []
  dot_S8x8_S8x160000_S8x160000_1_0_0_1_n_n_wf : DotDims.WF S8x8 S8x160000 S8x160000 [1] [0] [0] [1] [] []
  dot_S3x8_S8x160000_S3x160000_1_0_0_1_n_n_wf : DotDims.WF S3x8 S8x160000 S3x160000 [1] [0] [0] [1] [] []
  scatter_S2000000_S4000000x1_S4000000_n_0_0_1_wf : ScatterDims.WF S2000000 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x160000.size a ≤ S6x4000000.size a
  hwx0_0 : ∀ i : grid0.Coords, EltTy.bits .bf16 = 32 ∨ (Rect.block (s := S6x4000000) S6x160000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x6.size a ≤ S8x6.size a
  hwx0_1 : ∀ i : grid0.Coords, EltTy.bits .f32 = 32 ∨ (Rect.block (s := S8x6) S8x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x8.size a ≤ S8x8.size a
  hwx0_5 : ∀ i : grid0.Coords, EltTy.bits .f32 = 32 ∨ (Rect.block (s := S8x8) S8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x8.size a ≤ S3x8.size a
  hwx0_7 : ∀ i : grid0.Coords, EltTy.bits .f32 = 32 ∨ (Rect.block (s := S3x8) S3x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1.size a ≤ S3x1.size a
  hwx0_8 : ∀ i : grid0.Coords, EltTy.bits .f32 = 32 ∨ (Rect.block (s := S3x1) S3x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x160000.size a ≤ S3x4000000.size a
  hwx0_9 : ∀ i : grid0.Coords, EltTy.bits .f32 = 32 ∨ (Rect.block (s := S3x4000000) S3x160000.size (cc0_transform_9 i) (hinb0_9 i)).WholeWords (EltTy.packing .f32)

variable [Facts₀]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def dot_S8x6_S6x160000_S8x160000_1_0_0_1_n_n : DotDims S8x6 S6x160000 S8x160000 where
  lhsContracting := [1]
  rhsContracting := [0]
  lhsNonContracting := [0]
  rhsNonContracting := [1]
  lhsBatch := []
  rhsBatch := []
  wf := dot_S8x6_S6x160000_S8x160000_1_0_0_1_n_n_wf
def dot_S8x8_S8x160000_S8x160000_1_0_0_1_n_n : DotDims S8x8 S8x160000 S8x160000 where
  lhsContracting := [1]
  rhsContracting := [0]
  lhsNonContracting := [0]
  rhsNonContracting := [1]
  lhsBatch := []
  rhsBatch := []
  wf := dot_S8x8_S8x160000_S8x160000_1_0_0_1_n_n_wf
def dot_S3x8_S8x160000_S3x160000_1_0_0_1_n_n : DotDims S3x8 S8x160000 S3x160000 where
  lhsContracting := [1]
  rhsContracting := [0]
  lhsNonContracting := [0]
  rhsNonContracting := [1]
  lhsBatch := []
  rhsBatch := []
  wf := dot_S3x8_S8x160000_S3x160000_1_0_0_1_n_n_wf
def scatter_S2000000_S4000000x1_S4000000_n_0_0_1 : ScatterDims S2000000 S4000000x1 S4000000 where
  updateWindowDims := []
  insertedWindowDims := [0]
  scatterDimsToOperandDims := [0]
  indexVectorDim := 1
  wf := scatter_S2000000_S4000000x1_S4000000_n_0_0_1_wf

abbrev win0_0 : Pipeline.Window sig grid0 :=
  Pipeline.Window.ofSpec (Memref.whole main_v59) S6x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S8x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v64) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v61) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v65) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62) S8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v66) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v63) S3x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v67) S3x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v68) S3x160000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2000000x2 : Shape := ⟨2, ![2000000, 2]⟩
abbrev S4000000x3 : Shape := ⟨2, ![4000000, 3]⟩
abbrev S6x8 : Shape := ⟨2, ![6, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S_ : Shape := ⟨0, ![]⟩
abbrev S4000000x3x1 : Shape := ⟨3, ![4000000, 3, 1]⟩
abbrev S4000000x3x2 : Shape := ⟨3, ![4000000, 3, 2]⟩
abbrev S4000000x6 : Shape := ⟨2, ![4000000, 6]⟩
abbrev S4000000x8 : Shape := ⟨2, ![4000000, 8]⟩
abbrev S1x8 : Shape := ⟨2, ![1, 8]⟩
abbrev S1x3 : Shape := ⟨2, ![1, 3]⟩
abbrev S12000000 : Shape := ⟨1, ![12000000]⟩
abbrev S2000000 : Shape := ⟨1, ![2000000]⟩
abbrev S12000000x1 : Shape := ⟨2, ![12000000, 1]⟩

abbrev nBuf : Space → Nat
  | .hbm => 74
  | .vmem => 0
  | .smem => 0
  | _ => 0

abbrev bufTy : (tb : Table) → Fin (tcTables nBuf tb) → BufTy
  | .hbm, ⟨0, _⟩ => ⟨S2000000x2, .f32⟩
  | .hbm, ⟨1, _⟩ => ⟨S4000000x3, .i32⟩
  | .hbm, ⟨2, _⟩ => ⟨S6x8, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S8x3, .f32⟩
  | .hbm, ⟨9, _⟩ => ⟨S3, .f32⟩
  | .hbm, ⟨10, _⟩ => ⟨S_, .i32⟩
  | .hbm, ⟨11, _⟩ => ⟨S4000000x3, .i32⟩
  | .hbm, ⟨12, _⟩ => ⟨S4000000x3, .i1⟩
  | .hbm, ⟨13, _⟩ => ⟨S_, .i32⟩
  | .hbm, ⟨14, _⟩ => ⟨S4000000x3, .i32⟩
  | .hbm, ⟨15, _⟩ => ⟨S4000000x3, .i32⟩
  | .hbm, ⟨16, _⟩ => ⟨S4000000x3, .i32⟩
  | .hbm, ⟨17, _⟩ => ⟨S4000000x3x1, .i32⟩
  | .hbm, ⟨18, _⟩ => ⟨S4000000x3x2, .f32⟩
  | .hbm, ⟨19, _⟩ => ⟨S4000000x6, .f32⟩
  | .hbm, ⟨20, _⟩ => ⟨S4000000x8, .f32⟩
  | .hbm, ⟨21, _⟩ => ⟨S1x8, .f32⟩
  | .hbm, ⟨22, _⟩ => ⟨S4000000x8, .f32⟩
  | .hbm, ⟨23, _⟩ => ⟨S4000000x8, .f32⟩
  | .hbm, ⟨24, _⟩ => ⟨S4000000x8, .f32⟩
  | .hbm, ⟨25, _⟩ => ⟨S4000000x8, .f32⟩
  | .hbm, ⟨26, _⟩ => ⟨S_, .f32⟩
  | .hbm, ⟨27, _⟩ => ⟨S4000000x8, .f32⟩
  | .hbm, ⟨28, _⟩ => ⟨S4000000x8, .f32⟩
  | .hbm, ⟨29, _⟩ => ⟨S_, .f32⟩
  | .hbm, ⟨30, _⟩ => ⟨S4000000x8, .f32⟩
  | .hbm, ⟨31, _⟩ => ⟨S4000000x8, .f32⟩
  | .hbm, ⟨32, _⟩ => ⟨S4000000x8, .f32⟩
  | .hbm, ⟨33, _⟩ => ⟨S1x8, .f32⟩
  | .hbm, ⟨34, _⟩ => ⟨S4000000x8, .f32⟩
  | .hbm, ⟨35, _⟩ => ⟨S4000000x8, .f32⟩
  | .hbm, ⟨36, _⟩ => ⟨S4000000x8, .f32⟩
  | .hbm, ⟨37, _⟩ => ⟨S4000000x8, .f32⟩
  | .hbm, ⟨38, _⟩ => ⟨S_, .f32⟩
  | .hbm, ⟨39, _⟩ => ⟨S4000000x8, .f32⟩
  | .hbm, ⟨40, _⟩ => ⟨S4000000x8, .f32⟩
  | .hbm, ⟨41, _⟩ => ⟨S_, .f32⟩
  | .hbm, ⟨42, _⟩ => ⟨S4000000x8, .f32⟩
  | .hbm, ⟨43, _⟩ => ⟨S4000000x8, .f32⟩
  | .hbm, ⟨44, _⟩ => ⟨S4000000x8, .f32⟩
  | .hbm, ⟨45, _⟩ => ⟨S1x8, .f32⟩
  | .hbm, ⟨46, _⟩ => ⟨S4000000x8, .f32⟩
  | .hbm, ⟨47, _⟩ => ⟨S4000000x8, .f32⟩
  | .hbm, ⟨48, _⟩ => ⟨S4000000x8, .f32⟩
  | .hbm, ⟨49, _⟩ => ⟨S4000000x8, .f32⟩
  | .hbm, ⟨50, _⟩ => ⟨S_, .f32⟩
  | .hbm, ⟨51, _⟩ => ⟨S4000000x8, .f32⟩
  | .hbm, ⟨52, _⟩ => ⟨S4000000x8, .f32⟩
  | .hbm, ⟨53, _⟩ => ⟨S_, .f32⟩
  | .hbm, ⟨54, _⟩ => ⟨S4000000x8, .f32⟩
  | .hbm, ⟨55, _⟩ => ⟨S4000000x8, .f32⟩
  | .hbm, ⟨56, _⟩ => ⟨S4000000x3, .f32⟩
  | .hbm, ⟨57, _⟩ => ⟨S1x3, .f32⟩
  | .hbm, ⟨58, _⟩ => ⟨S4000000x3, .f32⟩
  | .hbm, ⟨59, _⟩ => ⟨S4000000x3, .f32⟩
  | .hbm, ⟨60, _⟩ => ⟨S4000000x3, .f32⟩
  | .hbm, ⟨61, _⟩ => ⟨S4000000x3, .f32⟩
  | .hbm, ⟨62, _⟩ => ⟨S_, .f32⟩
  | .hbm, ⟨63, _⟩ => ⟨S4000000x3, .f32⟩
  | .hbm, ⟨64, _⟩ => ⟨S4000000x3, .f32⟩
  | .hbm, ⟨65, _⟩ => ⟨S_, .f32⟩
  | .hbm, ⟨66, _⟩ => ⟨S4000000x3, .f32⟩
  | .hbm, ⟨67, _⟩ => ⟨S4000000x3, .f32⟩
  | .hbm, ⟨68, _⟩ => ⟨S12000000, .f32⟩
  | .hbm, ⟨69, _⟩ => ⟨S12000000, .i32⟩
  | .hbm, ⟨70, _⟩ => ⟨S_, .f32⟩
  | .hbm, ⟨71, _⟩ => ⟨S2000000, .f32⟩
  | .hbm, ⟨72, _⟩ => ⟨S12000000x1, .i32⟩
  | .hbm, ⟨73, _⟩ => ⟨S2000000, .f32⟩
  | _, _ => ⟨S2000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  bcast_S4000000x3_S4000000x3x1_0_1 : S4000000x3.BroadcastsInDim S4000000x3x1 (![0, 1] : Fin 2 → Fin S4000000x3x1.rank)
  shapeCasts_S4000000x3x2_S4000000x6 : S4000000x3x2.ShapeCasts S4000000x6
  bcast_S8_S1x8_1 : S8.BroadcastsInDim S1x8 (![1] : Fin 1 → Fin S1x8.rank)
  bcast_S1x8_S4000000x8_0_1 : S1x8.BroadcastsInDim S4000000x8 (![0, 1] : Fin 2 → Fin S4000000x8.rank)
  bcast_S_S4000000x8 : S_.BroadcastsInDim S4000000x8 (![] : Fin 0 → Fin S4000000x8.rank)
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  shapeCasts_S4000000x3_S12000000 : S4000000x3.ShapeCasts S12000000
  bcast_S_S2000000 : S_.BroadcastsInDim S2000000 (![] : Fin 0 → Fin S2000000.rank)
  bcast_S12000000_S12000000x1_0 : S12000000.BroadcastsInDim S12000000x1 (![0] : Fin 1 → Fin S12000000x1.rank)
  gather_S2000000x2_S4000000x3x1_S4000000x3x2_2_0_n_n_0_2_12_wf : GatherDims.WF S2000000x2 S4000000x3x1 S4000000x3x2 [2] [0] [] [0] [] 2 ![1, 2]
  dot_S4000000x6_S6x8_S4000000x8_1_0_0_1_n_n_wf : DotDims.WF S4000000x6 S6x8 S4000000x8 [1] [0] [0] [1] [] []
  dot_S4000000x8_S8x8_S4000000x8_1_0_0_1_n_n_wf : DotDims.WF S4000000x8 S8x8 S4000000x8 [1] [0] [0] [1] [] []
  dot_S4000000x8_S8x3_S4000000x3_1_0_0_1_n_n_wf : DotDims.WF S4000000x8 S8x3 S4000000x3 [1] [0] [0] [1] [] []
  scatter_S2000000_S12000000x1_S12000000_n_0_0_1_wf : ScatterDims.WF S2000000 S12000000x1 S12000000 [] [0] [0] 1

variable [Facts₀]

def gather_S2000000x2_S4000000x3x1_S4000000x3x2_2_0_n_n_0_2_12 : GatherDims S2000000x2 S4000000x3x1 S4000000x3x2 where
  offsetDims := [2]
  collapsedSliceDims := [0]
  operandBatchingDims := []
  startIndicesBatchingDims := []
  startIndexMap := [0]
  indexVectorDim := 2
  sliceSizes := ![1, 2]
  wf := gather_S2000000x2_S4000000x3x1_S4000000x3x2_2_0_n_n_0_2_12_wf
def dot_S4000000x6_S6x8_S4000000x8_1_0_0_1_n_n : DotDims S4000000x6 S6x8 S4000000x8 where
  lhsContracting := [1]
  rhsContracting := [0]
  lhsNonContracting := [0]
  rhsNonContracting := [1]
  lhsBatch := []
  rhsBatch := []
  wf := dot_S4000000x6_S6x8_S4000000x8_1_0_0_1_n_n_wf
def dot_S4000000x8_S8x8_S4000000x8_1_0_0_1_n_n : DotDims S4000000x8 S8x8 S4000000x8 where
  lhsContracting := [1]
  rhsContracting := [0]
  lhsNonContracting := [0]
  rhsNonContracting := [1]
  lhsBatch := []
  rhsBatch := []
  wf := dot_S4000000x8_S8x8_S4000000x8_1_0_0_1_n_n_wf
def dot_S4000000x8_S8x3_S4000000x3_1_0_0_1_n_n : DotDims S4000000x8 S8x3 S4000000x3 where
  lhsContracting := [1]
  rhsContracting := [0]
  lhsNonContracting := [0]
  rhsNonContracting := [1]
  lhsBatch := []
  rhsBatch := []
  wf := dot_S4000000x8_S8x3_S4000000x3_1_0_0_1_n_n_wf
def scatter_S2000000_S12000000x1_S12000000_n_0_0_1 : ScatterDims S2000000 S12000000x1 S12000000 where
  updateWindowDims := []
  insertedWindowDims := [0]
  scatterDimsToOperandDims := [0]
  indexVectorDim := 1
  wf := scatter_S2000000_S12000000x1_S12000000_n_0_0_1_wf

class Facts : Prop extends Facts₀ where

variable [Facts]
-- ==== Proof.KernelRegion.lean ====
/-
  The frame of the program: it runs to the end, faults nowhere, and leaves its ten argument arrays as launched.

  @main is a stretch of host operations (slices, the wrap-and-gather of the six coordinate rows, their concatenation into
  a 6 x 4000000 array, the transposed weights and the bias columns), ONE region over a grid of 25 points, and a stretch
  of host operations after it (the three row slices, three scatter-adds, two additions). At a grid point the body loads
  its nine input blocks whole (the 6 x 160000 block of feature rows, four weight matrices, four bias columns), computes
  the four dense layers with a logistic after each, loads its output block once without using the value, and stores the
  3 x 160000 result block whole. So after the body every input buffer holds its block as before, and the output buffer
  holds the one stored value: the canon of that one store. The proof data names exactly this; the body's triple is run
  by the symbolic executor; the launch theorem for a region with host operations after it gives the run; the frame
  claim's post is read off it because no host operation writes an argument array and no window stages one.
  Everything is stated for any float instance `F`.
-/
import proofs.«125010_j69853348102547_2_alg».proof.Proof.Gen.Kernel.Launch
import proofs.«125010_j69853348102547_2_alg».proof.Proof.Gen.Kernel.Skeleton
import proofs.«125010_j69853348102547_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 8: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 9: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved since the point that fetched it). -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run to the launch theorem's post read at the ten
    argument arrays is the frame claim's post: no window stages an argument, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses: each buffer whole -/

abbrev rA : Rect S6x160000 := Rect.unit (s := S6x160000) ![0, 0] S6x160000.size inb_S6x160000_S6x160000_0_0
abbrev rB : Rect S8x6 := Rect.unit (s := S8x6) ![0, 0] S8x6.size inb_S8x6_S8x6_0_0
abbrev rC : Rect S8x1 := Rect.unit (s := S8x1) ![0, 0] S8x1.size inb_S8x1_S8x1_0_0
abbrev rD : Rect S8x8 := Rect.unit (s := S8x8) ![0, 0] S8x8.size inb_S8x8_S8x8_0_0
abbrev rE : Rect S3x8 := Rect.unit (s := S3x8) ![0, 0] S3x8.size inb_S3x8_S3x8_0_0
abbrev rF : Rect S3x1 := Rect.unit (s := S3x1) ![0, 0] S3x1.size inb_S3x1_S3x1_0_0
abbrev rO : Rect S3x160000 := Rect.unit (s := S3x160000) ![0, 0] S3x160000.size inb_S3x160000_S3x160000_0_0

/-! ## What the body leaves in the output window's buffer -/

/-- The output buffer after the body, from the nine input blocks: its one store, of the last layer's logistic. -/
def out0_9 (x0 : Vec F S6x160000 .bf16) (x1 : Vec F S8x6 .f32) (x2 : Vec F S8x1 .f32) (x3 : Vec F S8x8 .f32) (x4 : Vec F S8x1 .f32) (x5 : Vec F S8x8 .f32) (x6 : Vec F S8x1 .f32) (x7 : Vec F S3x8 .f32) (x8 : Vec F S3x1 .f32) : Vec F S3x160000 .f32 :=
  View.canon [⟨rO, k0_pay1 (k0_pay2 (View.ld x0 rA) (View.ld x1 rB) (View.ld x2 rC) (View.ld x3 rD) (View.ld x4 rC) (View.ld x5 rD) (View.ld x6 rC) (View.ld x7 rE)) (View.ld x8 rF)⟩]

/-- The one store covers the buffer. -/
theorem cover0_9 (p0 : Vec F S3x160000 .f32) (y : S3x160000.Idx) :
    ∃ pc ∈ ([⟨rO, p0⟩] : List (View.Piece (Elt F) S3x160000 .f32)), y ∈ pc.1.set :=
  View.cover_of_tiled [⟨rO, p0⟩] S3x160000.size (by rfl) y

/-! ## The body's triple -/

set_option maxHeartbeats 4000000 in
/-- On whole staging buffers, the inputs' at contents `xW` and the output's at anything, the body runs to a continuation
    holding the inputs' as they were and the output's at `out0_9` of them. -/
theorem sound_kernel (c : Dev nD) (E : Set ℕ) (i : grid0.Coords) (arg1 : Memref sig .tc .vmem S6x160000 .bf16) (harg1 : arg1.IsWhole) (arg2 : Memref sig .tc .vmem S8x6 .f32) (harg2 : arg2.IsWhole) (arg3 : Memref sig .tc .vmem S8x1 .f32) (harg3 : arg3.IsWhole) (arg4 : Memref sig .tc .vmem S8x8 .f32) (harg4 : arg4.IsWhole) (arg5 : Memref sig .tc .vmem S8x1 .f32) (harg5 : arg5.IsWhole) (arg6 : Memref sig .tc .vmem S8x8 .f32) (harg6 : arg6.IsWhole) (arg7 : Memref sig .tc .vmem S8x1 .f32) (harg7 : arg7.IsWhole) (arg8 : Memref sig .tc .vmem S3x8 .f32) (harg8 : arg8.IsWhole) (arg9 : Memref sig .tc .vmem S3x1 .f32) (harg9 : arg9.IsWhole) (arg10 : Memref sig .tc .vmem S3x160000 .f32) (harg10 : arg10.IsWhole)
    (x0 : Vec F S6x160000 .bf16) (x1 : Vec F S8x6 .f32) (x2 : Vec F S8x1 .f32) (x3 : Vec F S8x8 .f32) (x4 : Vec F S8x1 .f32) (x5 : Vec F S8x8 .f32) (x6 : Vec F S8x1 .f32) (x7 : Vec F S3x8 .f32) (x8 : Vec F S3x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel_T i arg1 harg1 arg2 harg2 arg3 harg3 arg4 harg4 arg5 harg5 arg6 harg6 arg7 harg7 arg8 harg8 arg9 harg9 arg10 harg10) K := by
  simp only [cc0__mlp_kernel_T_eq_skeleton]; unfold cc0__mlp_kernel_T_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The region's proof data -/

/-- The arrays as the region finds them; after the body at point `t` each input's buffer at its block and the output's
    at `out0_9` of the input blocks; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    proof data's write-backs leave and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its ten argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Region

end
-- ==== Proof.KernelIdealRegion.lean ====
/-
  The frame of the program: it runs to the end, faults nowhere, and leaves its ten argument arrays as launched.

  @main is a stretch of host operations (slices, the wrap-and-gather of the six coordinate rows, their concatenation into
  a 6 x 4000000 array, the transposed weights and the bias columns), ONE region over a grid of 25 points, and a stretch
  of host operations after it (the three row slices, three scatter-adds, two additions). At a grid point the body loads
  its nine input blocks whole (the 6 x 160000 block of feature rows, four weight matrices, four bias columns), computes
  the four dense layers with a logistic after each, loads its output block once without using the value, and stores the
  3 x 160000 result block whole. So after the body every input buffer holds its block as before, and the output buffer
  holds the one stored value: the canon of that one store. The proof data names exactly this; the body's triple is run
  by the symbolic executor; the launch theorem for a region with host operations after it gives the run; the frame
  claim's post is read off it because no host operation writes an argument array and no window stages one.
  Everything is stated for any float instance `F`.
-/
import proofs.«125010_j69853348102547_2_alg».proof.Proof.Gen.KernelIdeal.Launch
import proofs.«125010_j69853348102547_2_alg».proof.Proof.Gen.KernelIdeal.Skeleton
import proofs.«125010_j69853348102547_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 8: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 9: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved since the point that fetched it). -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run to the launch theorem's post read at the ten
    argument arrays is the frame claim's post: no window stages an argument, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses: each buffer whole -/

abbrev rA : Rect S6x160000 := Rect.unit (s := S6x160000) ![0, 0] S6x160000.size inb_S6x160000_S6x160000_0_0
abbrev rB : Rect S8x6 := Rect.unit (s := S8x6) ![0, 0] S8x6.size inb_S8x6_S8x6_0_0
abbrev rC : Rect S8x1 := Rect.unit (s := S8x1) ![0, 0] S8x1.size inb_S8x1_S8x1_0_0
abbrev rD : Rect S8x8 := Rect.unit (s := S8x8) ![0, 0] S8x8.size inb_S8x8_S8x8_0_0
abbrev rE : Rect S3x8 := Rect.unit (s := S3x8) ![0, 0] S3x8.size inb_S3x8_S3x8_0_0
abbrev rF : Rect S3x1 := Rect.unit (s := S3x1) ![0, 0] S3x1.size inb_S3x1_S3x1_0_0
abbrev rO : Rect S3x160000 := Rect.unit (s := S3x160000) ![0, 0] S3x160000.size inb_S3x160000_S3x160000_0_0

/-! ## What the body leaves in the output window's buffer -/

/-- The output buffer after the body, from the nine input blocks: its one store, of the last layer's logistic. -/
def out0_9 (x0 : Vec F S6x160000 .bf16) (x1 : Vec F S8x6 .f32) (x2 : Vec F S8x1 .f32) (x3 : Vec F S8x8 .f32) (x4 : Vec F S8x1 .f32) (x5 : Vec F S8x8 .f32) (x6 : Vec F S8x1 .f32) (x7 : Vec F S3x8 .f32) (x8 : Vec F S3x1 .f32) : Vec F S3x160000 .f32 :=
  View.canon [⟨rO, k0_pay1 (k0_pay2 (View.ld x0 rA) (View.ld x1 rB) (View.ld x2 rC) (View.ld x3 rD) (View.ld x4 rC) (View.ld x5 rD) (View.ld x6 rC) (View.ld x7 rE)) (View.ld x8 rF)⟩]

/-- The one store covers the buffer. -/
theorem cover0_9 (p0 : Vec F S3x160000 .f32) (y : S3x160000.Idx) :
    ∃ pc ∈ ([⟨rO, p0⟩] : List (View.Piece (Elt F) S3x160000 .f32)), y ∈ pc.1.set :=
  View.cover_of_tiled [⟨rO, p0⟩] S3x160000.size (by rfl) y

/-! ## The body's triple -/

set_option maxHeartbeats 4000000 in
/-- On whole staging buffers, the inputs' at contents `xW` and the output's at anything, the body runs to a continuation
    holding the inputs' as they were and the output's at `out0_9` of them. -/
theorem sound_kernel (c : Dev nD) (E : Set ℕ) (i : grid0.Coords) (arg1 : Memref sig .tc .vmem S6x160000 .bf16) (harg1 : arg1.IsWhole) (arg2 : Memref sig .tc .vmem S8x6 .f32) (harg2 : arg2.IsWhole) (arg3 : Memref sig .tc .vmem S8x1 .f32) (harg3 : arg3.IsWhole) (arg4 : Memref sig .tc .vmem S8x8 .f32) (harg4 : arg4.IsWhole) (arg5 : Memref sig .tc .vmem S8x1 .f32) (harg5 : arg5.IsWhole) (arg6 : Memref sig .tc .vmem S8x8 .f32) (harg6 : arg6.IsWhole) (arg7 : Memref sig .tc .vmem S8x1 .f32) (harg7 : arg7.IsWhole) (arg8 : Memref sig .tc .vmem S3x8 .f32) (harg8 : arg8.IsWhole) (arg9 : Memref sig .tc .vmem S3x1 .f32) (harg9 : arg9.IsWhole) (arg10 : Memref sig .tc .vmem S3x160000 .f32) (harg10 : arg10.IsWhole)
    (x0 : Vec F S6x160000 .bf16) (x1 : Vec F S8x6 .f32) (x2 : Vec F S8x1 .f32) (x3 : Vec F S8x8 .f32) (x4 : Vec F S8x1 .f32) (x5 : Vec F S8x8 .f32) (x6 : Vec F S8x1 .f32) (x7 : Vec F S3x8 .f32) (x8 : Vec F S3x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel_T i arg1 harg1 arg2 harg2 arg3 harg3 arg4 harg4 arg5 harg5 arg6 harg6 arg7 harg7 arg8 harg8 arg9 harg9 arg10 harg10) K := by
  simp only [cc0__mlp_kernel_T_eq_skeleton]; unfold cc0__mlp_kernel_T_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The region's proof data -/

/-- The arrays as the region finds them; after the body at point `t` each input's buffer at its block and the output's
    at `out0_9` of the input blocks; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    proof data's write-backs leave and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its ten argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Region

end
-- ==== Proof.Simplex.lean ====
/-
  What the two programs compute, as one function of the argument arrays on the extended reals.

  A mesh has 2000000 points in the plane and 4000000 simplices, each naming three points by index words. For simplex
  `e` the six features are the coordinates of its three points, vertex `k / 2`, coordinate `k % 2`: an index word is
  wrapped (a negative word has the number of points added) and then, read as a signed integer, clamped into the table.
  The features go through four dense layers, each followed by the logistic function, 6 → 8 → 8 → 8 → 3, which gives
  each simplex one weight per vertex slot. Point `n` then collects the weight of slot `j` of every simplex whose slot
  `j` names `n` — here by the RAW index word read as a signed integer, unwrapped, since a scatter drops what falls
  outside the table.

  One program adds the three slots' sums, the other sums once over all 12000000 (simplex, slot) pairs laid out row by
  row; `sum_pairs` is the law joining them, a regrouping of a finite sum, valid on the extended reals as in any
  commutative monoid. One program multiplies weight by feature, the other feature by weight: `layer_comm`.
-/
import Idealize.ShloMosaic.Lib.ValueIdx
import Idealize.ShloMosaic.PureOps.Ideal.Laws

noncomputable section

namespace Cert.Simplex

open Idealize.ShloMosaic Idealize.ShloMosaic.ValueIdx

/-- An index word with the number of points added when it is negative. -/
def wrap (w : BitVec 32) : BitVec 32 := Scalar.select (IntOp.cmpi .slt w 0#32) (IntOp.addi w 2000000#32) w

/-- The table row an index word reads: its signed value, negative values taken to `0`, cut to at most the last row. -/
def rowOf (w : BitVec 32) : Fin 2000000 := ⟨min w.toInt.toNat (2000000 - 1), by omega⟩

/-- One dense layer followed by the logistic function, at output `o`. -/
def layer {K N : Nat} (W : Fin K → Fin N → EReal) (b : Fin N → EReal) (x : Fin K → EReal) (o : Fin N) : EReal :=
  Ideal.logistic ((∑ k : Fin K, x k * W k o) + b o)

/-- The same layer with every product written weight first. -/
theorem layer_comm {K N : Nat} (W : Fin K → Fin N → EReal) (b : Fin N → EReal) (x : Fin K → EReal) (o : Fin N) :
    Ideal.logistic ((∑ k : Fin K, W k o * x k) + b o) = layer W b x o := by
  unfold layer
  exact congrArg (fun s => Ideal.logistic (s + b o)) (Finset.sum_congr rfl fun k _ => mul_comm _ _)

/-- The points' coordinates, the simplices' index words, and the layers' weights and biases. -/
abbrev Pts := (⟨2, ![2000000, 2]⟩ : Shape).Idx → EReal
abbrev Adj := (⟨2, ![4000000, 3]⟩ : Shape).Idx → BitVec 32
abbrev Mat (a b : Nat) := (⟨2, ![a, b]⟩ : Shape).Idx → EReal
abbrev Col (a : Nat) := (⟨1, ![a]⟩ : Shape).Idx → EReal

/-- Feature `k` of simplex `e`: coordinate `k % 2` of the point its slot `k / 2` names. -/
def feat (P : Pts) (A : Adj) (e : Fin 4000000) (k : Fin 6) : EReal :=
  P (ix2 (rowOf (wrap (A (ix2 e (⟨k.val / 2, by omega⟩ : Fin 3))))) (⟨k.val % 2, by omega⟩ : Fin 2))

/-- The four layers on simplex `e`: its weight for vertex slot `j`. -/
def mlp (P : Pts) (A : Adj) (W1 : Mat 6 8) (b1 : Col 8) (W2 : Mat 8 8) (b2 : Col 8) (W3 : Mat 8 8) (b3 : Col 8)
    (W4 : Mat 8 3) (b4 : Col 3) (e : Fin 4000000) (j : Fin 3) : EReal :=
  layer (fun k o => W4 (ix2 k o)) (fun o => b4 (ix1 o))
    (layer (fun k o => W3 (ix2 k o)) (fun o => b3 (ix1 o))
      (layer (fun k o => W2 (ix2 k o)) (fun o => b2 (ix1 o))
        (layer (fun k o => W1 (ix2 k o)) (fun o => b1 (ix1 o)) (feat P A e)))) j

/-- The simplices whose vertex slot `j` names point `n`, by the raw index word read as a signed integer. -/
def hits (A : Adj) (j : Fin 3) (n : Fin 2000000) : Finset (Fin 4000000) :=
  Finset.univ.filter fun e => (A (ix2 e j)).toInt = (n.val : Int)

/-- The weight point `n` collects: slot by slot, the weights of the simplices naming it there. -/
def weights (P : Pts) (A : Adj) (W1 : Mat 6 8) (b1 : Col 8) (W2 : Mat 8 8) (b2 : Col 8) (W3 : Mat 8 8) (b3 : Col 8)
    (W4 : Mat 8 3) (b4 : Col 3) (n : Fin 2000000) : EReal :=
  (∑ e ∈ hits A 0 n, mlp P A W1 b1 W2 b2 W3 b3 W4 b4 e 0)
    + (∑ e ∈ hits A 1 n, mlp P A W1 b1 W2 b2 W3 b3 W4 b4 e 1)
    + (∑ e ∈ hits A 2 n, mlp P A W1 b1 W2 b2 W3 b3 W4 b4 e 2)

/-! ## The (simplex, slot) pairs laid out row by row -/

/-- Position `3 e + j` of the flattened array is slot `j` of simplex `e`. -/
def pairEquiv : Fin 4000000 × Fin 3 ≃ Fin 12000000 where
  toFun p := ⟨3 * p.1.val + p.2.val, by have := p.1.isLt; have := p.2.isLt; omega⟩
  invFun k := (⟨k.val / 3, by have := k.isLt; omega⟩, ⟨k.val % 3, by omega⟩)
  left_inv p := by
    have h1 := p.1.isLt; have h2 := p.2.isLt
    refine Prod.ext (Fin.ext ?_) (Fin.ext ?_)
    · show (3 * p.1.val + p.2.val) / 3 = p.1.val; omega
    · show (3 * p.1.val + p.2.val) % 3 = p.2.val; omega
  right_inv k := by
    refine Fin.ext ?_
    show 3 * (k.val / 3) + k.val % 3 = k.val; omega

/-- A sum over the flattened positions satisfying a condition is the three slots' sums over the simplices satisfying
    it: a finite sum regrouped. -/
theorem sum_pairs (p : Fin 4000000 → Fin 3 → Prop) [∀ e j, Decidable (p e j)] (f : Fin 4000000 → Fin 3 → EReal) :
    (∑ k ∈ Finset.univ.filter (fun k : Fin 12000000 => p (pairEquiv.symm k).1 (pairEquiv.symm k).2),
        f (pairEquiv.symm k).1 (pairEquiv.symm k).2)
      = (∑ e ∈ Finset.univ.filter (fun e => p e 0), f e 0) + (∑ e ∈ Finset.univ.filter (fun e => p e 1), f e 1)
        + (∑ e ∈ Finset.univ.filter (fun e => p e 2), f e 2) := by
  rw [Finset.sum_filter, ← Equiv.sum_comp pairEquiv]
  simp only [Equiv.symm_apply_apply]
  rw [Fintype.sum_prod_type, Finset.sum_comm, Fin.sum_univ_three, Finset.sum_filter, Finset.sum_filter, Finset.sum_filter]

end Cert.Simplex

end
-- ==== Proof.LibNary6.lean ====
/-
  A host operation of six operands given as a literal family — `StableHlo.nary ![x, a, b, c, d, e] y f`, the printed form
  of a `stablehlo.concatenate` of six arrays — read at its result buffer with each operand's contents at its OWN
  reference: `f` applied to `Fin.cons (V x) (Fin.cons (V a) …)` rather than to `fun k => V (![x, a, b, c, d, e] k)`.
  Under the binder of the second form the reference `![x, a, b, c, d, e] k` is no literal, and a fold of host operations
  read back one operation at a time stops there; with the first form it goes on into the six operands.
  Also the same statement with the result reference un-indexed, for use as a `simp` lemma.
-/
import Idealize.ShloMosaic.Lib.StableHlo.Run

noncomputable section

namespace Idealize.ShloMosaic.StableHlo

variable {τ : Topo} {sig : RefSig} {Val : EltTy → Type} {x a b c d e y : Ref sig .tc}

/-- The result of a six-operand operation over literal references, the operands' contents each at its own reference. -/
theorem nary6_result
    (f : ((k : Fin 6) → ((![x, a, b, c, d, e] : Fin 6 → Ref sig .tc) k).ty.Contents Val) → y.ty.Contents Val) (hxs hy)
    (V : Valuation τ sig Val) :
    (nary (τ := τ) ![x, a, b, c, d, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc d)) (Fin.cons (V (Proc.devRef .tc e))
            (fun i => i.elim0))))))) := by
  rw [nary_result]; congr 1; funext k; fin_cases k <;> rfl

/-- The same, keyed for `simp` on the operation alone. -/
theorem nary6_result'
    (f : ((k : Fin 6) → ((![x, a, b, c, d, e] : Fin 6 → Ref sig .tc) k).ty.Contents Val) → y.ty.Contents Val) (hxs hy)
    (V : Valuation τ sig Val) :
    (nary (τ := τ) ![x, a, b, c, d, e] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc d)) (Fin.cons (V (Proc.devRef .tc e))
            (fun i => i.elim0))))))) :=
  nary6_result f hxs hy V

end Idealize.ShloMosaic.StableHlo

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibGather1.lean ====
/-
  A gather from a column, read at an index, and two facts about the row a gather reads.

  For a column `x` of `N` entries and a column `idx` of `M` integer words (shape `[M, 1]`), the gather takes result entry
  `e` from the operand entry `idx[e]` read as a signed integer and clamped into `[0, N − 1]`: entry `e` of the result is
  `x (gatherRow idx e)`, the same clamped row that a gather of whole rows reads.

  * An index word whose signed reading is `n < N` makes the gather read row `n`: the clamp does nothing.
  * The usual wrap of a possibly negative index, `select (w < 0) (w + k) w`, leaves a non-negative word as it is.
-/
import Idealize.ShloMosaic.Lib.ValueIdx
import Idealize.ShloMosaic.Lib.Pipeline.Value
import proofs.«125010_j69853348102547_2_alg».proof.Proof.LibRowScatter

noncomputable section

namespace Cert.Lib.Gather1

open Idealize.ShloMosaic Idealize.ShloMosaic.ValueIdx Cert.Lib.RowScatter

section Gather
variable {α : Type}

/-- The dimension numbers of a gather of single entries from a column: operand `[N]`, start indices `[M, 1]`, result
    `[M]`; no offset axis, the operand's axis 0 collapsed and named by the start index, the index vector along axis 1
    of the start indices, a slice one entry. Their conditions `wf` are decided on literal shapes. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER FROM A COLUMN READ AT `e`: the operand at `gatherRow N hN idx e`, the start index `idx (e, 0)` read signed
    and clamped into `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1Dims N M wf) x idx (ix1 e) = x (ix1 (gatherRow N hN idx e)) := by
  unfold Host.gather
  congr 1
  funext a
  obtain rfl : a = 0 := Subsingleton.elim _ _
  refine Fin.ext ?_
  show (gather1Dims N M wf).start (ix1 e) idx 0 + (gather1Dims N M wf).batchCoord (ix1 e) 0
    + (gather1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx (ix1 e) ⟨List.idxOf (0 : Fin 1) (gather1Dims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-- An index word whose signed reading is the row `n` makes a gather read row `n`. -/
theorem gatherRow_eq_of_toInt {N M w : Nat} (hN : 0 < N) (idx : IVec ⟨2, ![M, 1]⟩ w) (e : Fin M) (n : Fin N)
    (h : (idx (ix2 e (0 : Fin 1))).toInt = (n.val : Int)) : gatherRow N hN idx e = n := by
  refine Fin.ext ?_
  show min (idx (ix2 e (0 : Fin 1))).toInt.toNat (N - 1) = n.val
  rw [h, Int.toNat_natCast]
  have := n.isLt
  omega

/-- The wrap of a possibly negative index leaves a word whose signed reading is not negative as it is. -/
theorem select_wrap_of_nonneg (x k : BitVec 32) (h : 0 ≤ x.toInt) :
    Scalar.select (IntOp.cmpi .slt x 0#32) (IntOp.addi x k) x = x := by
  have hs : x.slt 0#32 = false := by
    rw [Bool.eq_false_iff]
    intro hs
    have hlt := BitVec.slt_iff_toInt_lt.mp hs
    rw [BitVec.toInt_zero] at hlt
    omega
  show Scalar.select (BitVec.ofBool (x.slt 0#32)) (IntOp.addi x k) x = x
  rw [hs]
  exact select_zero _ _

end Cert.Lib.Gather1

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«125010_j69853348102547_2_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.KernelIdealHost.lean ====
/-
  The arrays the region finds, and what the host operations after it make of its result.

  Before the region the host cuts the index array into its three slot columns and the point array into its two
  coordinate columns, wraps each slot column (a negative word has 2000000 added), gathers each coordinate column by
  each wrapped slot column, lays the six gathered rows one under the other (slot major, coordinate minor) and narrows
  the result; it transposes the four weight matrices and turns the four bias vectors into columns. So the feature
  array's entry `(k, e)` is `Simplex.feat` — coordinate `k % 2` of the point that slot `k / 2` of simplex `e`
  names —, a transposed weight's entry `(o, k)` is the weight's `(k, o)`, and a bias column's entry `(o, 0)` is the
  bias's `o`.
  After the region the host takes the three rows of the 3 x 4000000 result, scatter-adds row `j` into a column of
  zeros by the RAW slot column `j`, and adds the three columns: point `n` gets, slot by slot, the sum of the result's
  entries `(j, e)` over the simplices `e` whose slot `j` names `n`.
-/
import proofs.«125010_j69853348102547_2_alg».proof.Proof.KernelIdealRegion
import proofs.«125010_j69853348102547_2_alg».proof.Proof.Simplex
import proofs.«125010_j69853348102547_2_alg».proof.Proof.LibNary6
import proofs.«125010_j69853348102547_2_alg».proof.Proof.LibGather1
import proofs.«125010_j69853348102547_2_alg».proof.Proof.LibScatter1
import proofs.«125010_j69853348102547_2_alg».proof.Proof.LibColumn
import Idealize.ShloMosaic.Lib.Pipeline.Value
import Idealize.ShloMosaic.Lib.ValueLayout
import Idealize.ShloMosaic.Lib.StableHlo.Run

set_option maxRecDepth 16384

noncomputable section

namespace Cert.KernelIdeal.Host

open Cert.KernelIdeal Cert.KernelIdeal.Gen Cert.KernelIdeal.Region Cert.Simplex
open Idealize.ShloMosaic Idealize.ShloMosaic.ValueIdx Idealize.ShloMosaic.TcCoe Idealize.SL.Sem Idealize.ShloMosaic.StableHlo

/-- A fold of host operations read back at one buffer, one `simp` pass; the six-operand concatenation with each
    operand at its own reference. -/
macro "host_results" : tactic =>
  `(tactic| (simp (disch := decide) only [after_cons, after_nil,
      nullary_result', unary_result', binary_result', ternary_result', quaternary_result', reshape_result', nary6_result',
      unaryIndexed_result', binaryIndexed_result',
      nullary_result_ne', unary_result_ne', binary_result_ne', ternary_result_ne', quaternary_result_ne', reshape_result_ne',
      nary_result_ne', unaryIndexed_result_ne', binaryIndexed_result_ne']))

/-! ## The host operations before the region, as functions of the arguments -/

/-- Slot column `off 1` of the index array, as a vector of 4000000 words. -/
def slot (A : IVec S4000000x3 32) (off : Fin 2 → Nat) (h : S4000000x3.Slices off S4000000x1) : IVec S4000000 32 :=
  shapeCast S4000000 (extractStridedSlice S4000000x1 off A h) shapeCasts_S4000000x1_S4000000

/-- Coordinate column `off 1` of the point array, as a vector of 2000000 numbers. -/
def coord (P : FVec Ideal S2000000x2 .f32) (off : Fin 2 → Nat) (h : S2000000x2.Slices off S2000000x1) : FVec Ideal S2000000 .f32 :=
  shapeCast S2000000 (extractStridedSlice S2000000x1 off P h) shapeCasts_S2000000x1_S2000000

/-- A slot column wrapped: 2000000 added to the negative words. -/
def wrapped (e : IVec S4000000 32) : IVec S4000000 32 :=
  select (cmpi .slt e (broadcastInDim S4000000 ![] bcast_S_S4000000 (constantI S_ 32 0#32)))
    (addi e (broadcastInDim S4000000 ![] bcast_S_S4000000 (constantI S_ 32 2000000#32))) e

/-- A coordinate column gathered by a wrapped slot column, as a row of 4000000 numbers. -/
def gathered (x : FVec Ideal S2000000 .f32) (e : IVec S4000000 32) : FVec Ideal S1x4000000 .f32 :=
  broadcastInDim S1x4000000 ![1] bcast_S4000000_S1x4000000_1
    (Host.gather gather_S2000000_S4000000x1_S4000000_n_0_n_n_0_1_1 x
      (broadcastInDim S4000000x1 ![0] bcast_S4000000_S4000000x1_0 (wrapped e)))

/-- The feature array: the six gathered rows one under the other, narrowed. -/
def features (P : FVec Ideal S2000000x2 .f32) (A : IVec S4000000x3 32) : FVec Ideal S6x4000000 .bf16 :=
  truncf .bf16 (concatenate S6x4000000 0
    [⟨S1x4000000, gathered (coord P ![0, 0] slices_S2000000x2_S2000000x1_0_0) (slot A ![0, 0] slices_S4000000x3_S4000000x1_0_0)⟩,
     ⟨S1x4000000, gathered (coord P ![0, 1] slices_S2000000x2_S2000000x1_0_1) (slot A ![0, 0] slices_S4000000x3_S4000000x1_0_0)⟩,
     ⟨S1x4000000, gathered (coord P ![0, 0] slices_S2000000x2_S2000000x1_0_0) (slot A ![0, 1] slices_S4000000x3_S4000000x1_0_1)⟩,
     ⟨S1x4000000, gathered (coord P ![0, 1] slices_S2000000x2_S2000000x1_0_1) (slot A ![0, 1] slices_S4000000x3_S4000000x1_0_1)⟩,
     ⟨S1x4000000, gathered (coord P ![0, 0] slices_S2000000x2_S2000000x1_0_0) (slot A ![0, 2] slices_S4000000x3_S4000000x1_0_2)⟩,
     ⟨S1x4000000, gathered (coord P ![0, 1] slices_S2000000x2_S2000000x1_0_1) (slot A ![0, 2] slices_S4000000x3_S4000000x1_0_2)⟩]
    concatenates_S1x4000000_S1x4000000_S1x4000000_S1x4000000_S1x4000000_S1x4000000_S6x4000000_d0) bitsLt_bf16_f32

variable (m : (ℓ : Loc nD τ sig) → Buf (Elt Ideal) ℓ)

set_option maxHeartbeats 4000000 in
/-- The region finds the feature array at `features` of the point and index arrays. -/
theorem V_v59 (c : Dev nD) : (V m c main_v59 : FVec Ideal S6x4000000 .bf16)
    = features (m ((c : Thread nD τ).loc main_arg0)) (m ((c : Thread nD τ).loc main_arg1)) := by
  show StableHlo.after hostOps0 (fun b => m (c, b)) (Proc.devRef .tc main_v59) = _
  host_results <;> rfl

set_option maxHeartbeats 4000000 in
theorem V_v60 (c : Dev nD) : (V m c main_v60 : FVec Ideal S8x6 .f32) = transpose S8x6 [1, 0] (m ((c : Thread nD τ).loc main_arg2)) transposes_S6x8_S8x6_1_0 := by
  show StableHlo.after hostOps0 (fun b => m (c, b)) (Proc.devRef .tc main_v60) = _
  host_results <;> rfl

set_option maxHeartbeats 4000000 in
theorem V_v61 (c : Dev nD) : (V m c main_v61 : FVec Ideal S8x8 .f32) = transpose S8x8 [1, 0] (m ((c : Thread nD τ).loc main_arg4)) transposes_S8x8_S8x8_1_0 := by
  show StableHlo.after hostOps0 (fun b => m (c, b)) (Proc.devRef .tc main_v61) = _
  host_results <;> rfl

set_option maxHeartbeats 4000000 in
theorem V_v62 (c : Dev nD) : (V m c main_v62 : FVec Ideal S8x8 .f32) = transpose S8x8 [1, 0] (m ((c : Thread nD τ).loc main_arg6)) transposes_S8x8_S8x8_1_0 := by
  show StableHlo.after hostOps0 (fun b => m (c, b)) (Proc.devRef .tc main_v62) = _
  host_results <;> rfl

set_option maxHeartbeats 4000000 in
theorem V_v63 (c : Dev nD) : (V m c main_v63 : FVec Ideal S3x8 .f32) = transpose S3x8 [1, 0] (m ((c : Thread nD τ).loc main_arg8)) transposes_S8x3_S3x8_1_0 := by
  show StableHlo.after hostOps0 (fun b => m (c, b)) (Proc.devRef .tc main_v63) = _
  host_results <;> rfl

set_option maxHeartbeats 4000000 in
theorem V_v64 (c : Dev nD) : (V m c main_v64 : FVec Ideal S8x1 .f32) = shapeCast S8x1 (m ((c : Thread nD τ).loc main_arg3)) shapeCasts_S8_S8x1 := by
  show StableHlo.after hostOps0 (fun b => m (c, b)) (Proc.devRef .tc main_v64) = _
  host_results <;> rfl

set_option maxHeartbeats 4000000 in
theorem V_v65 (c : Dev nD) : (V m c main_v65 : FVec Ideal S8x1 .f32) = shapeCast S8x1 (m ((c : Thread nD τ).loc main_arg5)) shapeCasts_S8_S8x1 := by
  show StableHlo.after hostOps0 (fun b => m (c, b)) (Proc.devRef .tc main_v65) = _
  host_results <;> rfl

set_option maxHeartbeats 4000000 in
theorem V_v66 (c : Dev nD) : (V m c main_v66 : FVec Ideal S8x1 .f32) = shapeCast S8x1 (m ((c : Thread nD τ).loc main_arg7)) shapeCasts_S8_S8x1 := by
  show StableHlo.after hostOps0 (fun b => m (c, b)) (Proc.devRef .tc main_v66) = _
  host_results <;> rfl

set_option maxHeartbeats 4000000 in
theorem V_v67 (c : Dev nD) : (V m c main_v67 : FVec Ideal S3x1 .f32) = shapeCast S3x1 (m ((c : Thread nD τ).loc main_arg9)) shapeCasts_S3_S3x1 := by
  show StableHlo.after hostOps0 (fun b => m (c, b)) (Proc.devRef .tc main_v67) = _
  host_results <;> rfl

set_option maxHeartbeats 4000000 in
theorem V_v1 (c : Dev nD) : (V m c main_v1 : IVec S4000000 32) = slot (m ((c : Thread nD τ).loc main_arg1)) ![0, 0] slices_S4000000x3_S4000000x1_0_0 := by
  show StableHlo.after hostOps0 (fun b => m (c, b)) (Proc.devRef .tc main_v1) = _
  host_results <;> rfl

set_option maxHeartbeats 4000000 in
theorem V_v3 (c : Dev nD) : (V m c main_v3 : IVec S4000000 32) = slot (m ((c : Thread nD τ).loc main_arg1)) ![0, 1] slices_S4000000x3_S4000000x1_0_1 := by
  show StableHlo.after hostOps0 (fun b => m (c, b)) (Proc.devRef .tc main_v3) = _
  host_results <;> rfl

set_option maxHeartbeats 4000000 in
theorem V_v5 (c : Dev nD) : (V m c main_v5 : IVec S4000000 32) = slot (m ((c : Thread nD τ).loc main_arg1)) ![0, 2] slices_S4000000x3_S4000000x1_0_2 := by
  show StableHlo.after hostOps0 (fun b => m (c, b)) (Proc.devRef .tc main_v5) = _
  host_results <;> rfl

end Cert.KernelIdeal.Host

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibLogisticCols.lean ====
/-
  A dense layer on feature-major activations followed by the logistic function, as a vector unit spells it, read at
  an entry at Ideal.

  The weight is an `M × K` matrix (one row per output feature), the activations a `K × L` array (one column per
  sample), the bias an `M × 1` column. The unit narrows the weight, multiplies into a zero accumulator, spreads the
  bias column along the `L` lanes, adds, and applies the logistic function. On the extended reals a change of float
  format is the identity, the product into zero is the plain sum of products, and the logistic function is
  `1 / (1 + e^(−z))` with its limits at the infinities: entry `(p, q)` is the logistic of
  `∑ k, W (p, k) · h (k, q) + b (p, 0)`.
-/
import Idealize.ShloMosaic.Lib.ValueIdx
import Idealize.ShloMosaic.Lib.Pipeline.Value
import Idealize.ShloMosaic.PureOps.Ideal.Laws
import proofs.«125010_j69853348102547_2_alg».proof.Proof.LibPlainDot
import proofs.«125010_j69853348102547_2_alg».proof.Proof.LibColumn

noncomputable section

namespace Cert.Lib.LogisticCols

open Idealize.ShloMosaic Idealize.ShloMosaic.ValueIdx

/-- The logistic function of an array, at an index. -/
theorem logistic_apply {s : Shape} {φ : FTy} (x : FVec Ideal s φ) (i : s.Idx) : logistic x i = Ideal.logistic (x i) := rfl

/-- THE LAYER READ AT `(p, q)`. The dimension numbers `d` are any record equal to the plain `M×K` by `K×L` ones. -/
theorem layer_apply {M K L : Nat} {ψ : FTy}
    (d : DotDims ⟨2, ![M, K]⟩ ⟨2, ![K, L]⟩ ⟨2, ![M, L]⟩) (hd : d = DotDims.plain M K L)
    (W : (⟨2, ![M, K]⟩ : Shape).Idx → EReal) (h : FVec Ideal ⟨2, ![K, L]⟩ ψ) (b : (⟨2, ![M, 1]⟩ : Shape).Idx → EReal)
    (hW : (⟨2, ![M, K]⟩ : Shape).ShapeCasts ⟨2, ![M, K]⟩) (hb : (⟨2, ![M, 1]⟩ : Shape).ShapeCasts ⟨2, ![M, 1]⟩)
    (hbr : (⟨2, ![M, 1]⟩ : Shape).Broadcasts ⟨2, ![M, L]⟩) (hlt : FTy.bits .bf16 < FTy.bits .f32)
    (p : Fin M) (q : Fin L) :
    logistic (addf (matmul (F := Ideal) d none (truncf .bf16 (shapeCast ⟨2, ![M, K]⟩ (W : FVec Ideal ⟨2, ![M, K]⟩ .f32) hW) hlt) h
        (constant ⟨2, ![M, L]⟩ .f32 0x00000000#32))
      (broadcastTo ⟨2, ![M, L]⟩ (shapeCast ⟨2, ![M, 1]⟩ (b : FVec Ideal ⟨2, ![M, 1]⟩ .f32) hb) hbr)) (ix2 p q)
      = Ideal.logistic ((∑ k : Fin K, W (ix2 p k) * h (ix2 k q)) + b (ix2 p (0 : Fin 1))) := by
  subst hd
  rw [logistic_apply, addf_apply]
  refine congrArg Ideal.logistic ?_
  refine congrArg₂ (· + ·) ?_ ?_
  · refine (Cert.Lib.PlainDot.matmul_zero_apply none _ h p q).trans ?_
    refine Finset.sum_congr rfl fun k _ => ?_
    rw [truncf_apply, shapeCast_self]
  · rw [Cert.Lib.Column.colBroadcast_apply, shapeCast_self]

end Cert.Lib.LogisticCols

end
-- ==== Proof.KernelIdealBody.lean ====
/-
  What the body stores, at an entry.

  At a grid point the body holds a 6 x 160000 block of feature rows (one column per simplex), the four weight
  matrices stored by output rows, and the four bias columns. It computes, column by column, four dense layers each
  followed by the logistic function, and stores the 3 x 160000 result. So entry `(j, q)` of what it stores is the
  four layers applied to column `q` of the feature block, read at output `j`: the function `Simplex.layer` four
  times, with the weight of layer `l` read transposed (`W (o, k)` for input `k` and output `o`) and every product
  turned round (`layer_comm`).
-/
import proofs.«125010_j69853348102547_2_alg».proof.Proof.KernelIdealRegion
import proofs.«125010_j69853348102547_2_alg».proof.Proof.Simplex
import proofs.«125010_j69853348102547_2_alg».proof.Proof.LibLogisticCols
import Idealize.ShloMosaic.Lib.Pipeline.Value

set_option maxRecDepth 16384

noncomputable section

namespace Cert.KernelIdeal.Body

open Cert.KernelIdeal Cert.KernelIdeal.Gen Cert.KernelIdeal.Region Cert.Simplex
open Idealize.ShloMosaic Idealize.ShloMosaic.ValueIdx Idealize.ShloMosaic.TcCoe Idealize.SL.Sem

theorem hz : (![0, 0] : Fin 2 → Nat) = fun _ => 0 := funext fun a => by fin_cases a <;> rfl

/-- One layer as the body spells it, at entry `(p, q)`: `Simplex.layer` of column `q` of the activations, the weight
    read transposed. -/
theorem vlayer {M K L : Nat} {ψ : FTy}
    (d : DotDims ⟨2, ![M, K]⟩ ⟨2, ![K, L]⟩ ⟨2, ![M, L]⟩) (hd : d = DotDims.plain M K L)
    (W : (⟨2, ![M, K]⟩ : Shape).Idx → EReal) (h : FVec Ideal ⟨2, ![K, L]⟩ ψ) (b : (⟨2, ![M, 1]⟩ : Shape).Idx → EReal)
    (hW : (⟨2, ![M, K]⟩ : Shape).ShapeCasts ⟨2, ![M, K]⟩) (hb : (⟨2, ![M, 1]⟩ : Shape).ShapeCasts ⟨2, ![M, 1]⟩)
    (hbr : (⟨2, ![M, 1]⟩ : Shape).Broadcasts ⟨2, ![M, L]⟩) (hlt : FTy.bits .bf16 < FTy.bits .f32)
    (p : Fin M) (q : Fin L) :
    logistic (addf (matmul (F := Ideal) d none (truncf .bf16 (shapeCast ⟨2, ![M, K]⟩ (W : FVec Ideal ⟨2, ![M, K]⟩ .f32) hW) hlt) h
        (constant ⟨2, ![M, L]⟩ .f32 0x00000000#32))
      (broadcastTo ⟨2, ![M, L]⟩ (shapeCast ⟨2, ![M, 1]⟩ (b : FVec Ideal ⟨2, ![M, 1]⟩ .f32) hb) hbr)) (ix2 p q)
      = layer (fun k o => W (ix2 o k)) (fun o => b (ix2 o (0 : Fin 1))) (fun k => (h (ix2 k q) : EReal)) p :=
  (Cert.Lib.LogisticCols.layer_apply d hd W h b hW hb hbr hlt p q).trans
    (layer_comm (fun k o => W (ix2 o k)) (fun o => b (ix2 o (0 : Fin 1))) (fun k => (h (ix2 k q) : EReal)) p)

/-- THE STORED VALUE AT `(j, q)`: the four layers of column `q` of the feature block, at output `j`. -/
theorem out_apply (x0 : Vec Ideal S6x160000 .bf16) (x1 : Vec Ideal S8x6 .f32) (x2 : Vec Ideal S8x1 .f32)
    (x3 : Vec Ideal S8x8 .f32) (x4 : Vec Ideal S8x1 .f32) (x5 : Vec Ideal S8x8 .f32) (x6 : Vec Ideal S8x1 .f32)
    (x7 : Vec Ideal S3x8 .f32) (x8 : Vec Ideal S3x1 .f32) (j : Fin 3) (q : Fin 160000) :
    out0_9 (F := Ideal) x0 x1 x2 x3 x4 x5 x6 x7 x8 (ix2 j q)
      = layer (fun k o => x7 (ix2 o k)) (fun o => x8 (ix2 o (0 : Fin 1)))
          (layer (fun k o => x5 (ix2 o k)) (fun o => x6 (ix2 o (0 : Fin 1)))
            (layer (fun k o => x3 (ix2 o k)) (fun o => x4 (ix2 o (0 : Fin 1)))
              (layer (fun k o => x1 (ix2 o k)) (fun o => x2 (ix2 o (0 : Fin 1))) (fun k => x0 (ix2 k q))))) j := by
  unfold out0_9
  rw [View.canon_unit_zero hz]
  simp only [View.ld_unit_zero (S := S6x160000) hz, View.ld_unit_zero (S := S8x6) hz, View.ld_unit_zero (S := S8x1) hz,
    View.ld_unit_zero (S := S8x8) hz, View.ld_unit_zero (S := S3x8) hz, View.ld_unit_zero (S := S3x1) hz]
  unfold k0_pay1 k0_pay2
  refine (vlayer _ rfl x7 _ x8 _ _ _ _ j q).trans ?_
  refine congrArg (fun f => layer _ _ f j) (funext fun k3 => ?_)
  refine (vlayer _ rfl x5 _ x6 _ _ _ _ k3 q).trans ?_
  refine congrArg (fun f => layer _ _ f k3) (funext fun k2 => ?_)
  refine (vlayer _ rfl x3 _ x4 _ _ _ _ k2 q).trans ?_
  refine congrArg (fun f => layer _ _ f k2) (funext fun k1 => ?_)
  refine (vlayer _ rfl x1 _ x2 _ _ _ _ k1 q).trans ?_
  refine congrArg (fun f => layer _ _ f k1) (funext fun k0 => ?_)
  exact congrFun (shapeCast_self x0 _) (ix2 k0 q)

end Cert.KernelIdeal.Body

end
-- ==== Proof.KernelIdealWhole.lean ====
/-
  From the body's blocks to the whole output array.

  The region's output is a 3 x 4000000 array written back in 25 blocks of 3 x 160000: point `t` writes columns
  `160000 t … 160000 t + 159999`. Its feature input, 6 x 4000000, is cut the same way; the weights and bias columns
  are whole at every point. Entry `(j, e)` of the array after the run is therefore the four layers applied to column
  `e` of the feature array as the region finds it, with the weights and biases as the region finds them: `Gout`.
-/
import proofs.«125010_j69853348102547_2_alg».proof.Proof.KernelIdealBody

set_option maxRecDepth 16384

noncomputable section

namespace Cert.KernelIdeal.Whole

open Cert.KernelIdeal Cert.KernelIdeal.Gen Cert.KernelIdeal.Region Cert.Simplex
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The output array as one function of the arrays the region finds: the feature rows `X`, the transposed weights and
    the bias columns. -/
def Gout (X : Vec Ideal S6x4000000 .bf16) (W1 : Vec Ideal S8x6 .f32) (c1 : Vec Ideal S8x1 .f32) (W2 : Vec Ideal S8x8 .f32)
    (c2 : Vec Ideal S8x1 .f32) (W3 : Vec Ideal S8x8 .f32) (c3 : Vec Ideal S8x1 .f32) (W4 : Vec Ideal S3x8 .f32)
    (c4 : Vec Ideal S3x1 .f32) : Vec Ideal S3x4000000 .f32 :=
  fun i => layer (fun k o => W4 (ix2 o k)) (fun o => c4 (ix2 o (0 : Fin 1)))
    (layer (fun k o => W3 (ix2 o k)) (fun o => c3 (ix2 o (0 : Fin 1)))
      (layer (fun k o => W2 (ix2 o k)) (fun o => c2 (ix2 o (0 : Fin 1)))
        (layer (fun k o => W1 (ix2 o k)) (fun o => c1 (ix2 o (0 : Fin 1)))
          (fun k => X (ix2 k (⟨(i 1).val, idx2_lt1 i⟩ : Fin 4000000))))))
    (⟨(i 0).val, idx2_lt0 i⟩ : Fin 3)

/-- The printed index maps, decided over the 25 points: the feature window and the output window sit at block
    `(0, t)`, every other window at block `(0, 0)`. -/
theorem idx_facts : ∀ t : Fin cfg0.N,
    win0_0.index t (0 : Fin 2) = 0 ∧ win0_0.index t (1 : Fin 2) = t.val
    ∧ win0_9.index t (0 : Fin 2) = 0 ∧ win0_9.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem t_lt (t : Fin cfg0.N) : t.val < 25 := by
  have h : t.val < grid0.N := t.isLt
  rw [N_0] at h; exact h

/-- The stored value at a point, from blocks that are the arrays' blocks: `Gout` at the block's place in the array. -/
theorem stored_at (x0 : Vec Ideal S6x160000 .bf16) (x1 : Vec Ideal S8x6 .f32) (x2 : Vec Ideal S8x1 .f32)
    (x3 : Vec Ideal S8x8 .f32) (x4 : Vec Ideal S8x1 .f32) (x5 : Vec Ideal S8x8 .f32) (x6 : Vec Ideal S8x1 .f32)
    (x7 : Vec Ideal S3x8 .f32) (x8 : Vec Ideal S3x1 .f32)
    (X : Vec Ideal S6x4000000 .bf16) (T : Nat) (hT : T < 25)
    (hx0 : ∀ (k : Fin 6) (q : Fin 160000), x0 (ix2 k q) = X (ix2 k (⟨T * 160000 + q.val, by have := q.isLt; omega⟩ : Fin 4000000)))
    (j : Fin 3) (q : Fin 160000) :
    out0_9 (F := Ideal) x0 x1 x2 x3 x4 x5 x6 x7 x8 (ix2 j q)
      = Gout X x1 x2 x3 x4 x5 x6 x7 x8 (ix2 j (⟨T * 160000 + q.val, by have := q.isLt; omega⟩ : Fin 4000000)) := by
  rw [Body.out_apply]
  unfold Gout
  simp only [hx0]

/-! ## The blocks the body is handed are the arrays' blocks -/

/-- The feature window's block at point `t` holds columns `160000 t + q` of the feature array. -/
theorem blk0 (c : Dev nD) (t : Fin cfg0.N) (k : Fin 6) (q : Fin 160000) :
    iblk m c 0 t (ix2 k q) = V m c main_v59 (ix2 k (⟨t.val * 160000 + q.val, by have := q.isLt; have := t_lt t; omega⟩ : Fin 4000000)) := by
  obtain ⟨e0, e1, -⟩ := idx_facts t
  have e : ((cfg0.win 0).blk t).view.emb (ix2 k q) = ix2 k (⟨t.val * 160000 + q.val, by have := q.isLt; have := t_lt t; omega⟩ : Fin 4000000) := by
    funext a; apply Fin.ext
    match a with
    | ⟨0, _⟩ => show win0_0.index t (0 : Fin 2) * 6 + 1 * k.val = k.val; omega
    | ⟨1, _⟩ => show win0_0.index t (1 : Fin 2) * 160000 + 1 * q.val = t.val * 160000 + q.val; omega
  show V m c main_v59 (((cfg0.win 0).blk t).view.emb (ix2 k q)) = _
  rw [e]

/-- Window 1's block is its whole array at every point. -/
theorem blk1 (c : Dev nD) (t : Fin cfg0.N) : (iblk m c 1 t : Vec Ideal S8x6 .f32) = V m c main_v60 := by
  obtain ⟨-, -, -, -, e0, e1, -⟩ := idx_facts t
  funext y
  have e : ((cfg0.win 1).blk t).view.emb y = y := by
    funext a; apply Fin.ext
    match a with
    | ⟨0, _⟩ => show win0_1.index t (0 : Fin 2) * 8 + 1 * (y 0).val = (y 0).val; omega
    | ⟨1, _⟩ => show win0_1.index t (1 : Fin 2) * 6 + 1 * (y 1).val = (y 1).val; omega
  show V m c main_v60 (((cfg0.win 1).blk t).view.emb y) = _
  rw [e]

/-- Window 2's block is its whole array at every point. -/
theorem blk2 (c : Dev nD) (t : Fin cfg0.N) : (iblk m c 2 t : Vec Ideal S8x1 .f32) = V m c main_v64 := by
  obtain ⟨-, -, -, -, -, -, e0, e1, -⟩ := idx_facts t
  funext y
  have e : ((cfg0.win 2).blk t).view.emb y = y := by
    funext a; apply Fin.ext
    match a with
    | ⟨0, _⟩ => show win0_2.index t (0 : Fin 2) * 8 + 1 * (y 0).val = (y 0).val; omega
    | ⟨1, _⟩ => show win0_2.index t (1 : Fin 2) * 1 + 1 * (y 1).val = (y 1).val; omega
  show V m c main_v64 (((cfg0.win 2).blk t).view.emb y) = _
  rw [e]

/-- Window 3's block is its whole array at every point. -/
theorem blk3 (c : Dev nD) (t : Fin cfg0.N) : (iblk m c 3 t : Vec Ideal S8x8 .f32) = V m c main_v61 := by
  obtain ⟨-, -, -, -, -, -, -, -, e0, e1, -⟩ := idx_facts t
  funext y
  have e : ((cfg0.win 3).blk t).view.emb y = y := by
    funext a; apply Fin.ext
    match a with
    | ⟨0, _⟩ => show win0_3.index t (0 : Fin 2) * 8 + 1 * (y 0).val = (y 0).val; omega
    | ⟨1, _⟩ => show win0_3.index t (1 : Fin 2) * 8 + 1 * (y 1).val = (y 1).val; omega
  show V m c main_v61 (((cfg0.win 3).blk t).view.emb y) = _
  rw [e]

/-- Window 4's block is its whole array at every point. -/
theorem blk4 (c : Dev nD) (t : Fin cfg0.N) : (iblk m c 4 t : Vec Ideal S8x1 .f32) = V m c main_v65 := by
  obtain ⟨-, -, -, -, -, -, -, -, -, -, e0, e1, -⟩ := idx_facts t
  funext y
  have e : ((cfg0.win 4).blk t).view.emb y = y := by
    funext a; apply Fin.ext
    match a with
    | ⟨0, _⟩ => show win0_4.index t (0 : Fin 2) * 8 + 1 * (y 0).val = (y 0).val; omega
    | ⟨1, _⟩ => show win0_4.index t (1 : Fin 2) * 1 + 1 * (y 1).val = (y 1).val; omega
  show V m c main_v65 (((cfg0.win 4).blk t).view.emb y) = _
  rw [e]

/-- Window 5's block is its whole array at every point. -/
theorem blk5 (c : Dev nD) (t : Fin cfg0.N) : (iblk m c 5 t : Vec Ideal S8x8 .f32) = V m c main_v62 := by
  obtain ⟨-, -, -, -, -, -, -, -, -, -, -, -, e0, e1, -⟩ := idx_facts t
  funext y
  have e : ((cfg0.win 5).blk t).view.emb y = y := by
    funext a; apply Fin.ext
    match a with
    | ⟨0, _⟩ => show win0_5.index t (0 : Fin 2) * 8 + 1 * (y 0).val = (y 0).val; omega
    | ⟨1, _⟩ => show win0_5.index t (1 : Fin 2) * 8 + 1 * (y 1).val = (y 1).val; omega
  show V m c main_v62 (((cfg0.win 5).blk t).view.emb y) = _
  rw [e]

/-- Window 6's block is its whole array at every point. -/
theorem blk6 (c : Dev nD) (t : Fin cfg0.N) : (iblk m c 6 t : Vec Ideal S8x1 .f32) = V m c main_v66 := by
  obtain ⟨-, -, -, -, -, -, -, -, -, -, -, -, -, -, e0, e1, -⟩ := idx_facts t
  funext y
  have e : ((cfg0.win 6).blk t).view.emb y = y := by
    funext a; apply Fin.ext
    match a with
    | ⟨0, _⟩ => show win0_6.index t (0 : Fin 2) * 8 + 1 * (y 0).val = (y 0).val; omega
    | ⟨1, _⟩ => show win0_6.index t (1 : Fin 2) * 1 + 1 * (y 1).val = (y 1).val; omega
  show V m c main_v66 (((cfg0.win 6).blk t).view.emb y) = _
  rw [e]

/-- Window 7's block is its whole array at every point. -/
theorem blk7 (c : Dev nD) (t : Fin cfg0.N) : (iblk m c 7 t : Vec Ideal S3x8 .f32) = V m c main_v63 := by
  obtain ⟨-, -, -, -, -, -, -, -, -, -, -, -, -, -, -, -, e0, e1, -⟩ := idx_facts t
  funext y
  have e : ((cfg0.win 7).blk t).view.emb y = y := by
    funext a; apply Fin.ext
    match a with
    | ⟨0, _⟩ => show win0_7.index t (0 : Fin 2) * 3 + 1 * (y 0).val = (y 0).val; omega
    | ⟨1, _⟩ => show win0_7.index t (1 : Fin 2) * 8 + 1 * (y 1).val = (y 1).val; omega
  show V m c main_v63 (((cfg0.win 7).blk t).view.emb y) = _
  rw [e]

/-- Window 8's block is its whole array at every point. -/
theorem blk8 (c : Dev nD) (t : Fin cfg0.N) : (iblk m c 8 t : Vec Ideal S3x1 .f32) = V m c main_v67 := by
  obtain ⟨-, -, -, -, -, -, -, -, -, -, -, -, -, -, -, -, -, -, e0, e1⟩ := idx_facts t
  funext y
  have e : ((cfg0.win 8).blk t).view.emb y = y := by
    funext a; apply Fin.ext
    match a with
    | ⟨0, _⟩ => show win0_8.index t (0 : Fin 2) * 3 + 1 * (y 0).val = (y 0).val; omega
    | ⟨1, _⟩ => show win0_8.index t (1 : Fin 2) * 1 + 1 * (y 1).val = (y 1).val; omega
  show V m c main_v67 (((cfg0.win 8).blk t).view.emb y) = _
  rw [e]

/-- Entry `(j, q)` of the output window's block at point `t` sits at `(j, 160000 t + q)` of the array. -/
theorem emb9 (t : Fin cfg0.N) (j : Fin 3) (q : Fin 160000) :
    ((cfg0.win 9).blk t).view.emb (ix2 j q) = ix2 j (⟨t.val * 160000 + q.val, by have := q.isLt; have := t_lt t; omega⟩ : Fin 4000000) := by
  obtain ⟨-, -, e0, e1, -⟩ := idx_facts t
  funext a; apply Fin.ext
  match a with
  | ⟨0, _⟩ => show win0_9.index t (0 : Fin 2) * 3 + 1 * j.val = j.val; omega
  | ⟨1, _⟩ => show win0_9.index t (1 : Fin 2) * 160000 + 1 * q.val = t.val * 160000 + q.val; omega

/-! ## The cover -/

/-- An index of the array is in point `t`'s block iff each coordinate is in the block's range on its axis. -/
theorem mem_blk (t : Fin cfg0.N) (i : S3x4000000.Idx) :
    i ∈ ((cfg0.win 9).blk t).view.set ↔ ∀ a : Fin 2, win0_9.index t a * S3x160000.size a ≤ (i a).val
      ∧ (i a).val < win0_9.index t a * S3x160000.size a + S3x160000.size a := by
  show i ∈ ((View.whole main_v68).slice (win0_9.rect t)).set ↔ _
  rw [View.set_slice_whole, Rect.mem_set_unit]
  exact Iff.rfl

/-- Every index of the array is in the block of the point its column falls in. -/
theorem cover (i : S3x4000000.Idx) :
    ∃ t : Fin cfg0.N, (cfg0.win 9).flush t = true ∧ i ∈ ((cfg0.win 9).blk t).view.set := by
  have h1 : (i 1).val < 4000000 := idx2_lt1 i
  have h0 : (i 0).val < 3 := idx2_lt0 i
  have hN : (i 1).val / 160000 < grid0.N := by rw [N_0]; omega
  obtain ⟨-, -, e0, e1, -⟩ := idx_facts ⟨(i 1).val / 160000, hN⟩
  refine ⟨⟨(i 1).val / 160000, hN⟩, flush0_9 _, ?_⟩
  rw [mem_blk]
  intro a
  match a with
  | ⟨0, _⟩ =>
    show win0_9.index ⟨(i 1).val / 160000, hN⟩ (0 : Fin 2) * 3 ≤ (i 0).val
      ∧ (i 0).val < win0_9.index ⟨(i 1).val / 160000, hN⟩ (0 : Fin 2) * 3 + 3
    omega
  | ⟨1, _⟩ =>
    show win0_9.index ⟨(i 1).val / 160000, hN⟩ (1 : Fin 2) * 160000 ≤ (i 1).val
      ∧ (i 1).val < win0_9.index ⟨(i 1).val / 160000, hN⟩ (1 : Fin 2) * 160000 + 160000
    have e1' : win0_9.index ⟨(i 1).val / 160000, hN⟩ (1 : Fin 2) = (i 1).val / 160000 := e1
    omega

end Cert.KernelIdeal.Whole

end
-- ==== Proof.KernelIdealFeatures.lean ====
/-
  The host operations around the region, read at an entry.

  * Feature `(k, e)` of the array the region finds is `Simplex.feat`: coordinate `k % 2` of the point named by slot
    `k / 2` of simplex `e`, the index word wrapped and then clamped into the table by the gather.
  * With the transposed weights and the bias columns, the region's output function `Whole.Gout` at `(j, e)` is
    `Simplex.mlp` of simplex `e` at slot `j`.
  * The three scatter-adds after the region, added up, read at point `n`: slot by slot, the sum of the output's entries
    `(j, e)` over the simplices whose raw slot-`j` word names `n`. Each scatter starts from a column of zeros, and `0 + s = s`.
-/
import proofs.«125010_j69853348102547_2_alg».proof.Proof.KernelIdealHost
import proofs.«125010_j69853348102547_2_alg».proof.Proof.KernelIdealWhole

set_option maxRecDepth 16384

noncomputable section

namespace Cert.KernelIdeal.Host

open Cert.KernelIdeal Cert.KernelIdeal.Gen Cert.KernelIdeal.Region Cert.Simplex
open Idealize.ShloMosaic Idealize.ShloMosaic.ValueIdx Idealize.ShloMosaic.TcCoe Idealize.SL.Sem Idealize.ShloMosaic.StableHlo
open Cert.Lib.RowScatter Cert.Lib.Gather1 Cert.Lib.Scatter1

/-! ## Columns cut from the argument arrays -/

/-- Slot column `o` at simplex `e` is the index array's word `(e, o)`. -/
theorem slot_apply (A : IVec S4000000x3 32) (o : Nat) (ho : o < 3) (h : S4000000x3.Slices ![0, o] S4000000x1) (e : Fin 4000000) :
    slot A ![0, o] h (ix1 e) = A (ix2 e (⟨o, ho⟩ : Fin 3)) := by
  unfold slot
  refine (shapeCast_apply _ shapeCasts_S4000000x1_S4000000 (ix1 e) (ix2 e (0 : Fin 1)) ?_).trans ?_
  · rw [Shape.rowMajor_val_two, Shape.rowMajor_val_one]
    show e.val * 1 + 0 = e.val
    omega
  · refine extractStridedSlice_apply _ A h _ (ix2 e (⟨o, ho⟩ : Fin 3)) fun a => ?_
    match a with
    | ⟨0, _⟩ => show e.val = 0 + e.val; omega
    | ⟨1, _⟩ => show o = o + 0; omega

/-- Coordinate column `o` at point `r` is the point array's entry `(r, o)`. -/
theorem coord_apply (P : FVec Ideal S2000000x2 .f32) (o : Nat) (ho : o < 2) (h : S2000000x2.Slices ![0, o] S2000000x1) (r : Fin 2000000) :
    coord P ![0, o] h (ix1 r) = P (ix2 r (⟨o, ho⟩ : Fin 2)) := by
  unfold coord
  refine (shapeCast_apply _ shapeCasts_S2000000x1_S2000000 (ix1 r) (ix2 r (0 : Fin 1)) ?_).trans ?_
  · rw [Shape.rowMajor_val_two, Shape.rowMajor_val_one]
    show r.val * 1 + 0 = r.val
    omega
  · refine extractStridedSlice_apply _ P h _ (ix2 r (⟨o, ho⟩ : Fin 2)) fun a => ?_
    match a with
    | ⟨0, _⟩ => show r.val = 0 + r.val; omega
    | ⟨1, _⟩ => show o = o + 0; omega

/-- A scalar word spread over a column reads as the word. -/
theorem spread_word (w : BitVec 32) (i : S4000000.Idx) :
    broadcastInDim S4000000 ![] bcast_S_S4000000 (constantI S_ 32 w : IVec S_ 32) i = w :=
  broadcastInDim_apply _ bcast_S_S4000000 (constantI S_ 32 w : IVec S_ 32) i (fun a => a.elim0) (fun a => a.elim0)

/-- The wrapped column at `e` is the wrapped word. -/
theorem wrapped_apply (ev : IVec S4000000 32) (e : Fin 4000000) : wrapped ev (ix1 e) = wrap (ev (ix1 e)) := by
  show Scalar.select (IntOp.cmpi .slt (ev (ix1 e)) (broadcastInDim S4000000 ![] bcast_S_S4000000 (constantI S_ 32 0#32 : IVec S_ 32) (ix1 e)))
      (IntOp.addi (ev (ix1 e)) (broadcastInDim S4000000 ![] bcast_S_S4000000 (constantI S_ 32 2000000#32 : IVec S_ 32) (ix1 e))) (ev (ix1 e)) = _
  rw [spread_word, spread_word]
  rfl

/-- A column made an `[E, 1]` array reads at `(e, 0)` as the column at `e`. -/
theorem asIndex_apply (ev : IVec S4000000 32) (e : Fin 4000000) :
    broadcastInDim S4000000x1 ![0] bcast_S4000000_S4000000x1_0 ev (ix2 e (0 : Fin 1)) = ev (ix1 e) :=
  broadcastInDim_apply _ bcast_S4000000_S4000000x1_0 ev (ix2 e (0 : Fin 1)) (ix1 e) fun a =>
    match a with
    | ⟨0, _⟩ => by show e.val = if (4000000 : Nat) = 1 then 0 else e.val; rw [if_neg (by decide)]

/-- A gathered row at `(0, e)`: the coordinate column at the row the wrapped word reads. -/
theorem gathered_apply (x : FVec Ideal S2000000 .f32) (ev : IVec S4000000 32) (e : Fin 4000000) :
    gathered x ev (ix2 (0 : Fin 1) e) = x (ix1 (rowOf (wrap (ev (ix1 e))))) := by
  unfold gathered
  refine (broadcastInDim_apply _ bcast_S4000000_S1x4000000_1 _ (ix2 (0 : Fin 1) e) (ix1 e) fun a =>
    match a with
    | ⟨0, _⟩ => by show e.val = if (4000000 : Nat) = 1 then 0 else e.val; rw [if_neg (by decide)]).trans ?_
  refine (gather1_apply (N := 2000000) (M := 4000000) (by decide)
    gather_S2000000_S4000000x1_S4000000_n_0_n_n_0_1_1_wf x _ e).trans ?_
  refine congrArg (fun r => x (ix1 r)) (Fin.ext ?_)
  show min ((broadcastInDim S4000000x1 ![0] bcast_S4000000_S4000000x1_0 (wrapped ev)) (ix2 e (0 : Fin 1))).toInt.toNat (2000000 - 1)
    = min (wrap (ev (ix1 e))).toInt.toNat (2000000 - 1)
  rw [asIndex_apply, wrapped_apply]

/-! ## The feature array -/

/-- The six gathered rows, slot major and coordinate minor. -/
abbrev rows (P : FVec Ideal S2000000x2 .f32) (A : IVec S4000000x3 32) : List ((s : Shape) × (s.Idx → EReal)) :=
  [⟨S1x4000000, gathered (coord P ![0, 0] slices_S2000000x2_S2000000x1_0_0) (slot A ![0, 0] slices_S4000000x3_S4000000x1_0_0)⟩,
   ⟨S1x4000000, gathered (coord P ![0, 1] slices_S2000000x2_S2000000x1_0_1) (slot A ![0, 0] slices_S4000000x3_S4000000x1_0_0)⟩,
   ⟨S1x4000000, gathered (coord P ![0, 0] slices_S2000000x2_S2000000x1_0_0) (slot A ![0, 1] slices_S4000000x3_S4000000x1_0_1)⟩,
   ⟨S1x4000000, gathered (coord P ![0, 1] slices_S2000000x2_S2000000x1_0_1) (slot A ![0, 1] slices_S4000000x3_S4000000x1_0_1)⟩,
   ⟨S1x4000000, gathered (coord P ![0, 0] slices_S2000000x2_S2000000x1_0_0) (slot A ![0, 2] slices_S4000000x3_S4000000x1_0_2)⟩,
   ⟨S1x4000000, gathered (coord P ![0, 1] slices_S2000000x2_S2000000x1_0_1) (slot A ![0, 2] slices_S4000000x3_S4000000x1_0_2)⟩]

/-- Row `n` of the six rows laid one under the other is piece `n`. -/
theorem piece (P : FVec Ideal S2000000x2 .f32) (A : IVec S4000000x3 32) (e : Fin 4000000) (n : Nat) (hn : n < 6)
    (x₁ : S1x4000000.Idx → EReal) (hx : (rows P A)[n]'hn = ⟨S1x4000000, x₁⟩) :
    concatenate S6x4000000 0 (rows P A)
        concatenates_S1x4000000_S1x4000000_S1x4000000_S1x4000000_S1x4000000_S1x4000000_S6x4000000_d0 (ix2 (⟨n, hn⟩ : Fin 6) e)
      = x₁ (ix2 (0 : Fin 1) e) :=
  concatenate_apply_piece (t := S6x4000000) (0 : Fin 2) (rows P A)
    (show Shape.Concatenates ((rows P A).map (·.1)) S6x4000000 0 from
      concatenates_S1x4000000_S1x4000000_S1x4000000_S1x4000000_S1x4000000_S1x4000000_S6x4000000_d0)
    (ix2 (⟨n, hn⟩ : Fin 6) e) n hn S1x4000000 x₁ hx rfl n
    (by interval_cases n <;> rfl)
    (ix2 (0 : Fin 1) e)
    (fun b hb => match b with
      | ⟨0, _⟩ => absurd rfl hb
      | ⟨1, _⟩ => rfl)
    (by show n + 0 = n; omega)

set_option maxHeartbeats 1600000 in
/-- FEATURE `(k, e)` of the array the region finds. -/
theorem features_apply (P : FVec Ideal S2000000x2 .f32) (A : IVec S4000000x3 32) (k : Fin 6) (e : Fin 4000000) :
    features P A (ix2 k e) = feat P A e k := by
  show concatenate S6x4000000 0 (rows P A)
      concatenates_S1x4000000_S1x4000000_S1x4000000_S1x4000000_S1x4000000_S1x4000000_S6x4000000_d0 (ix2 k e) = _
  unfold feat
  match k with
  | ⟨0, _⟩ => rw [piece P A e 0 (by decide) _ rfl, gathered_apply, coord_apply P 0 (by decide), slot_apply A 0 (by decide)]; simp only [Fin.val_mk, Nat.reduceDiv, Nat.reduceMod]
  | ⟨1, _⟩ => rw [piece P A e 1 (by decide) _ rfl, gathered_apply, coord_apply P 1 (by decide), slot_apply A 0 (by decide)]; simp only [Fin.val_mk, Nat.reduceDiv, Nat.reduceMod]
  | ⟨2, _⟩ => rw [piece P A e 2 (by decide) _ rfl, gathered_apply, coord_apply P 0 (by decide), slot_apply A 1 (by decide)]; simp only [Fin.val_mk, Nat.reduceDiv, Nat.reduceMod]
  | ⟨3, _⟩ => rw [piece P A e 3 (by decide) _ rfl, gathered_apply, coord_apply P 1 (by decide), slot_apply A 1 (by decide)]; simp only [Fin.val_mk, Nat.reduceDiv, Nat.reduceMod]
  | ⟨4, _⟩ => rw [piece P A e 4 (by decide) _ rfl, gathered_apply, coord_apply P 0 (by decide), slot_apply A 2 (by decide)]; simp only [Fin.val_mk, Nat.reduceDiv, Nat.reduceMod]
  | ⟨5, _⟩ => rw [piece P A e 5 (by decide) _ rfl, gathered_apply, coord_apply P 1 (by decide), slot_apply A 2 (by decide)]; simp only [Fin.val_mk, Nat.reduceDiv, Nat.reduceMod]

/-! ## The region's output function at the arguments -/

/-- `Whole.Gout` at `(j, e)` for arrays whose entries are known: four layers of the known entries. -/
theorem Gout_of (X : Vec Ideal S6x4000000 .bf16) (W1t : Vec Ideal S8x6 .f32) (c1 : Vec Ideal S8x1 .f32) (W2t : Vec Ideal S8x8 .f32)
    (c2 : Vec Ideal S8x1 .f32) (W3t : Vec Ideal S8x8 .f32) (c3 : Vec Ideal S8x1 .f32) (W4t : Vec Ideal S3x8 .f32)
    (c4 : Vec Ideal S3x1 .f32) (j : Fin 3) (e : Fin 4000000)
    (f0 : Fin 6 → EReal) (M1 : Fin 6 → Fin 8 → EReal) (v1 : Fin 8 → EReal) (M2 : Fin 8 → Fin 8 → EReal) (v2 : Fin 8 → EReal)
    (M3 : Fin 8 → Fin 8 → EReal) (v3 : Fin 8 → EReal) (M4 : Fin 8 → Fin 3 → EReal) (v4 : Fin 3 → EReal)
    (hX : ∀ k, X (ix2 k e) = f0 k)
    (h1 : ∀ k o, W1t (ix2 o k) = M1 k o) (g1 : ∀ o, c1 (ix2 o (0 : Fin 1)) = v1 o)
    (h2 : ∀ k o, W2t (ix2 o k) = M2 k o) (g2 : ∀ o, c2 (ix2 o (0 : Fin 1)) = v2 o)
    (h3 : ∀ k o, W3t (ix2 o k) = M3 k o) (g3 : ∀ o, c3 (ix2 o (0 : Fin 1)) = v3 o)
    (h4 : ∀ k o, W4t (ix2 o k) = M4 k o) (g4 : ∀ o, c4 (ix2 o (0 : Fin 1)) = v4 o) :
    Whole.Gout X W1t c1 W2t c2 W3t c3 W4t c4 (ix2 j e) = layer M4 v4 (layer M3 v3 (layer M2 v2 (layer M1 v1 f0))) j := by
  obtain rfl : f0 = fun k => X (ix2 k e) := funext fun k => (hX k).symm
  obtain rfl : M1 = fun k o => W1t (ix2 o k) := funext fun k => funext fun o => (h1 k o).symm
  obtain rfl : v1 = fun o => c1 (ix2 o (0 : Fin 1)) := funext fun o => (g1 o).symm
  obtain rfl : M2 = fun k o => W2t (ix2 o k) := funext fun k => funext fun o => (h2 k o).symm
  obtain rfl : v2 = fun o => c2 (ix2 o (0 : Fin 1)) := funext fun o => (g2 o).symm
  obtain rfl : M3 = fun k o => W3t (ix2 o k) := funext fun k => funext fun o => (h3 k o).symm
  obtain rfl : v3 = fun o => c3 (ix2 o (0 : Fin 1)) := funext fun o => (g3 o).symm
  obtain rfl : M4 = fun k o => W4t (ix2 o k) := funext fun k => funext fun o => (h4 k o).symm
  obtain rfl : v4 = fun o => c4 (ix2 o (0 : Fin 1)) := funext fun o => (g4 o).symm
  rfl

/-- With the feature array, the transposed weights and the bias columns the host hands the region, its output function
    at `(j, e)` is the four layers of simplex `e` at slot `j`. -/
theorem Gout_apply (P : FVec Ideal S2000000x2 .f32) (A : IVec S4000000x3 32) (W1 : FVec Ideal S6x8 .f32) (b1 : FVec Ideal S8 .f32)
    (W2 : FVec Ideal S8x8 .f32) (b2 : FVec Ideal S8 .f32) (W3 : FVec Ideal S8x8 .f32) (b3 : FVec Ideal S8 .f32)
    (W4 : FVec Ideal S8x3 .f32) (b4 : FVec Ideal S3 .f32) (j : Fin 3) (e : Fin 4000000) :
    Whole.Gout (features P A) (transpose S8x6 [1, 0] W1 transposes_S6x8_S8x6_1_0) (shapeCast S8x1 b1 shapeCasts_S8_S8x1)
      (transpose S8x8 [1, 0] W2 transposes_S8x8_S8x8_1_0) (shapeCast S8x1 b2 shapeCasts_S8_S8x1)
      (transpose S8x8 [1, 0] W3 transposes_S8x8_S8x8_1_0) (shapeCast S8x1 b3 shapeCasts_S8_S8x1)
      (transpose S3x8 [1, 0] W4 transposes_S8x3_S3x8_1_0) (shapeCast S3x1 b4 shapeCasts_S3_S3x1) (ix2 j e)
      = mlp P A W1 b1 W2 b2 W3 b3 W4 b4 e j :=
  Gout_of _ _ _ _ _ _ _ _ _ j e (feat P A e)
    (fun k o => W1 (ix2 k o)) (fun o => b1 (ix1 o)) (fun k o => W2 (ix2 k o)) (fun o => b2 (ix1 o))
    (fun k o => W3 (ix2 k o)) (fun o => b3 (ix1 o)) (fun k o => W4 (ix2 k o)) (fun o => b4 (ix1 o))
    (fun k => features_apply P A k e)
    (fun k o => transpose_ix2_apply W1 _ o k) (fun o => Cert.Lib.Column.col_apply b1 _ o)
    (fun k o => transpose_ix2_apply W2 _ o k) (fun o => Cert.Lib.Column.col_apply b2 _ o)
    (fun k o => transpose_ix2_apply W3 _ o k) (fun o => Cert.Lib.Column.col_apply b3 _ o)
    (fun k o => transpose_ix2_apply W4 _ o k) (fun o => Cert.Lib.Column.col_apply b4 _ o)

/-! ## The host operations after the region -/

/-- Row `off 0` of the region's output scatter-added by a raw slot column into a column of zeros. -/
def scattered (out : FVec Ideal S3x4000000 .f32) (off : Fin 2 → Nat) (h : S3x4000000.Slices off S1x4000000)
    (ev : IVec S4000000 32) : FVec Ideal S2000000 .f32 :=
  Host.scatterAdd scatter_S2000000_S4000000x1_S4000000_n_0_0_1
    (broadcastInDim S2000000 ![] bcast_S_S2000000 (constant S_ .f32 0x00000000#32))
    (broadcastInDim S4000000x1 ![0] bcast_S4000000_S4000000x1_0 ev)
    (shapeCast S4000000 (extractStridedSlice S1x4000000 off out h) shapeCasts_S1x4000000_S4000000)

/-- The three scattered columns added. -/
def tail (out : FVec Ideal S3x4000000 .f32) (e0 e1 e2 : IVec S4000000 32) : FVec Ideal S2000000 .f32 :=
  addf (addf (scattered out ![0, 0] slices_S3x4000000_S1x4000000_0_0 e0) (scattered out ![1, 0] slices_S3x4000000_S1x4000000_1_0 e1))
    (scattered out ![2, 0] slices_S3x4000000_S1x4000000_2_0 e2)

/-- A scattered column at point `n`: the sum of the row's entries over the simplices whose raw word is `n`. -/
theorem scattered_apply (out : FVec Ideal S3x4000000 .f32) (o : Nat) (ho : o < 3) (h : S3x4000000.Slices ![o, 0] S1x4000000)
    (ev : IVec S4000000 32) (n : Fin 2000000) :
    scattered out ![o, 0] h ev (ix1 n)
      = ∑ e ∈ Finset.univ.filter (fun e : Fin 4000000 => (ev (ix1 e)).toInt = (n.val : Int)), out (ix2 (⟨o, ho⟩ : Fin 3) e) := by
  unfold scattered
  refine (scatterAdd1_apply (N := 2000000) (M := 4000000) scatter_S2000000_S4000000x1_S4000000_n_0_0_1_wf _ _ _ n).trans ?_
  have hz : broadcastInDim S2000000 ![] bcast_S_S2000000 (constant (F := Ideal) S_ .f32 0x00000000#32) (ix1 n) = (0 : EReal) :=
    (broadcastInDim_apply _ bcast_S_S2000000 (constant (F := Ideal) S_ .f32 0x00000000#32) (ix1 n) (fun a => a.elim0)
      (fun a => a.elim0)).trans Ideal.ofBits_zero_f32
  rw [hz, zero_add]
  unfold landsOn
  rw [Finset.filter_congr (fun e _ => by rw [asIndex_apply])]
  refine Finset.sum_congr rfl fun e _ => ?_
  refine (shapeCast_apply _ shapeCasts_S1x4000000_S4000000 (ix1 e) (ix2 (0 : Fin 1) e) ?_).trans ?_
  · rw [Shape.rowMajor_val_two, Shape.rowMajor_val_one]
    show 0 * 4000000 + e.val = e.val
    omega
  · refine extractStridedSlice_apply _ out h _ (ix2 (⟨o, ho⟩ : Fin 3) e) fun a => ?_
    match a with
    | ⟨0, _⟩ => show o = o + 0; omega
    | ⟨1, _⟩ => show e.val = 0 + e.val; omega

/-- The three vertex slots as numerals. -/
theorem slot_zero (h : 0 < 3) : (⟨0, h⟩ : Fin 3) = 0 := rfl
theorem slot_one (h : 1 < 3) : (⟨1, h⟩ : Fin 3) = 1 := rfl
theorem slot_two (h : 2 < 3) : (⟨2, h⟩ : Fin 3) = 2 := rfl

/-- The three columns added, at point `n`. -/
theorem tail_apply (out : FVec Ideal S3x4000000 .f32) (e0 e1 e2 : IVec S4000000 32) (n : Fin 2000000) :
    tail out e0 e1 e2 (ix1 n)
      = (∑ e ∈ Finset.univ.filter (fun e : Fin 4000000 => (e0 (ix1 e)).toInt = (n.val : Int)), out (ix2 (0 : Fin 3) e))
        + (∑ e ∈ Finset.univ.filter (fun e : Fin 4000000 => (e1 (ix1 e)).toInt = (n.val : Int)), out (ix2 (1 : Fin 3) e))
        + (∑ e ∈ Finset.univ.filter (fun e : Fin 4000000 => (e2 (ix1 e)).toInt = (n.val : Int)), out (ix2 (2 : Fin 3) e)) := by
  unfold tail
  rw [addf_apply, addf_apply, scattered_apply out 0 (by decide), scattered_apply out 1 (by decide),
    scattered_apply out 2 (by decide)]
  simp only [slot_zero, slot_one, slot_two]

end Cert.KernelIdeal.Host

end
-- ==== Proof.KernelIdealFinal.lean ====
/-
  The output array after the run.

  What point `t` writes back is block `t` of `Whole.Gout` of the arrays the region finds — the body's stored value at an
  entry (`Body.out_apply`), with every input block read where the arrays hold it —, and the 25 blocks cover the
  array: after the run the array is `Gout` of those arrays.
-/
import proofs.«125010_j69853348102547_2_alg».proof.Proof.KernelIdealWhole

set_option maxRecDepth 16384

noncomputable section

namespace Cert.KernelIdeal.Whole

open Cert.KernelIdeal Cert.KernelIdeal.Gen Cert.KernelIdeal.Region Cert.Simplex
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The stored value at a point whose nine input blocks are the arrays' blocks: `Gout` of the arrays. -/
theorem stored_of_blocks (x0 : Vec Ideal S6x160000 .bf16) (x1 : Vec Ideal S8x6 .f32) (x2 : Vec Ideal S8x1 .f32)
    (x3 : Vec Ideal S8x8 .f32) (x4 : Vec Ideal S8x1 .f32) (x5 : Vec Ideal S8x8 .f32) (x6 : Vec Ideal S8x1 .f32)
    (x7 : Vec Ideal S3x8 .f32) (x8 : Vec Ideal S3x1 .f32)
    (X : Vec Ideal S6x4000000 .bf16) (W1 : Vec Ideal S8x6 .f32) (c1 : Vec Ideal S8x1 .f32) (W2 : Vec Ideal S8x8 .f32)
    (c2 : Vec Ideal S8x1 .f32) (W3 : Vec Ideal S8x8 .f32) (c3 : Vec Ideal S8x1 .f32) (W4 : Vec Ideal S3x8 .f32)
    (c4 : Vec Ideal S3x1 .f32) (T : Nat) (hT : T < 25)
    (hx0 : ∀ (k : Fin 6) (q : Fin 160000), x0 (ix2 k q) = X (ix2 k (⟨T * 160000 + q.val, by have := q.isLt; omega⟩ : Fin 4000000)))
    (h1 : x1 = W1) (h2 : x2 = c1) (h3 : x3 = W2) (h4 : x4 = c2) (h5 : x5 = W3) (h6 : x6 = c3) (h7 : x7 = W4) (h8 : x8 = c4)
    (j : Fin 3) (q : Fin 160000) :
    out0_9 (F := Ideal) x0 x1 x2 x3 x4 x5 x6 x7 x8 (ix2 j q)
      = Gout X W1 c1 W2 c2 W3 c3 W4 c4 (ix2 j (⟨T * 160000 + q.val, by have := q.isLt; omega⟩ : Fin 4000000)) := by
  subst h1 h2 h3 h4 h5 h6 h7 h8
  exact stored_at x0 x1 x2 x3 x4 x5 x6 x7 x8 X T hT hx0 j q

set_option maxHeartbeats 3200000 in
/-- What point `t` writes back is block `t` of `Gout` of the arrays as the region finds them. -/
theorem flushed_eq (c : Dev nD) (t : Fin cfg0.N) :
    (dats m 0 c).flushed 9 t = ((cfg0.win 9).blk t).view.read (Elt Ideal)
      (Gout (V m c main_v59) (V m c main_v60) (V m c main_v64) (V m c main_v61) (V m c main_v65) (V m c main_v62)
        (V m c main_v66) (V m c main_v63) (V m c main_v67)) := by
  show (cfg0.win 9).cut (grid0.coords t) ((dats m 0 c).after 9 t) = _
  rw [after0_9]
  funext y
  obtain ⟨j, q, rfl⟩ : ∃ (j : Fin 3) (q : Fin 160000), (y : S3x160000.Idx) = ix2 j q := ⟨y 0, y 1, eq_ix2 y⟩
  show out0_9 (F := Ideal) (iblk m c 0 t) (iblk m c 1 t) (iblk m c 2 t) (iblk m c 3 t) (iblk m c 4 t) (iblk m c 5 t)
      (iblk m c 6 t) (iblk m c 7 t) (iblk m c 8 t) (ix2 j q)
    = Gout (V m c main_v59) (V m c main_v60) (V m c main_v64) (V m c main_v61) (V m c main_v65) (V m c main_v62)
        (V m c main_v66) (V m c main_v63) (V m c main_v67) (((cfg0.win 9).blk t).view.emb (ix2 j q))
  rw [emb9 t j q]
  exact stored_of_blocks (iblk m c 0 t) (iblk m c 1 t) (iblk m c 2 t) (iblk m c 3 t) (iblk m c 4 t) (iblk m c 5 t)
    (iblk m c 6 t) (iblk m c 7 t) (iblk m c 8 t) (V m c main_v59) (V m c main_v60) (V m c main_v64) (V m c main_v61)
    (V m c main_v65) (V m c main_v62) (V m c main_v66) (V m c main_v63) (V m c main_v67) t.val (t_lt t) (blk0 m c t)
    (blk1 m c t) (blk2 m c t) (blk3 m c t) (blk4 m c t) (blk5 m c t) (blk6 m c t) (blk7 m c t) (blk8 m c t) j q

/-- THE OUTPUT ARRAY AFTER THE RUN: `Gout` of the arrays as the region finds them. -/
theorem final (c : Dev nD) : (dats m 0 c).arrAt 9 cfg0.N
    = Gout (V m c main_v59) (V m c main_v60) (V m c main_v64) (V m c main_v61) (V m c main_v65) (V m c main_v62)
        (V m c main_v66) (V m c main_v63) (V m c main_v67) :=
  (dats m 0 c).arrAt_eq_of_cover 9 _ (fun t _ => flushed_eq m c t) cover

end Cert.KernelIdeal.Whole

end
-- ==== Proof.SimplexResult.lean ====
/-
  The result array both programs end with: entry `n` is the weight point `n` collects (`Simplex.weights`).
-/
import proofs.«125010_j69853348102547_2_alg».proof.Proof.Simplex

noncomputable section

namespace Cert.Simplex

open Idealize.ShloMosaic Idealize.ShloMosaic.ValueIdx

/-- The 2000000 collected weights as an array. -/
def result (P : Pts) (A : Adj) (W1 : Mat 6 8) (b1 : Col 8) (W2 : Mat 8 8) (b2 : Col 8) (W3 : Mat 8 8) (b3 : Col 8)
    (W4 : Mat 8 3) (b4 : Col 3) : (⟨1, ![2000000]⟩ : Shape).Idx → EReal :=
  fun i => weights P A W1 b1 W2 b2 W3 b3 W4 b4 (⟨(i 0).val, (i 0).isLt⟩ : Fin 2000000)

theorem result_apply (P : Pts) (A : Adj) (W1 : Mat 6 8) (b1 : Col 8) (W2 : Mat 8 8) (b2 : Col 8) (W3 : Mat 8 8) (b3 : Col 8)
    (W4 : Mat 8 3) (b4 : Col 3) (n : Fin 2000000) :
    result P A W1 b1 W2 b2 W3 b3 W4 b4 (ix1 n) = weights P A W1 b1 W2 b2 W3 b3 W4 b4 n := rfl

end Cert.Simplex

end
-- ==== Proof.KernelIdealResult.lean ====
/-
  The kernel program's result.

  After the run the region's output array is `Whole.Gout` of the arrays the region finds (`Whole.final`); the host
  operations after the region turn it into the three scatter-added columns (`Host.tail`); the arrays the region finds
  are the host prefix's functions of the arguments (`Host.V_v…`). Read at a point this is `Simplex.weights`: the
  program ends with its result buffer at `Simplex.result` of the argument arrays, and the arguments as launched.
-/
import proofs.«125010_j69853348102547_2_alg».proof.Proof.KernelIdealFeatures
import proofs.«125010_j69853348102547_2_alg».proof.Proof.KernelIdealFinal
import proofs.«125010_j69853348102547_2_alg».proof.Proof.SimplexResult

set_option maxRecDepth 16384

noncomputable section

namespace Cert.KernelIdeal.Result

open Cert.KernelIdeal Cert.KernelIdeal.Gen Cert.KernelIdeal.Region Cert.KernelIdeal.Host Cert.Simplex
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

set_option maxHeartbeats 4000000 in
/-- The host operations after the region leave the result buffer at `tail` of the region's output array and the three
    raw slot columns. -/
theorem tail_value (c : Dev nD) :
    Pipeline.afterTail₀ cfgs (dats m) 0 (V0 m) [hostOps1] c main_v85
      = tail ((dats m 0 c).arrAt 9 cfg0.N) (V m c main_v1) (V m c main_v3) (V m c main_v5) := by
  have h68 : Pipeline.withArrays spec0 c (V0 m c) (fun w => (dats m 0 c).arrAt w cfg0.N) (Proc.devRef .tc main_v68)
      = (dats m 0 c).arrAt 9 cfg0.N :=
    Pipeline.withArrays_arr spec0 launch0.win.arr_inj c (V0 m c) (fun w => (dats m 0 c).arrAt w cfg0.N) 9
  have h1 : Pipeline.withArrays spec0 c (V0 m c) (fun w => (dats m 0 c).arrAt w cfg0.N) (Proc.devRef .tc main_v1)
      = V m c main_v1 :=
    Pipeline.withArrays_of_ne spec0 c (V0 m c) _ main_v1 (by exact (by decide : ∀ w, Pipeline.arrRef spec0 w ≠ main_v1))
  have h3 : Pipeline.withArrays spec0 c (V0 m c) (fun w => (dats m 0 c).arrAt w cfg0.N) (Proc.devRef .tc main_v3)
      = V m c main_v3 :=
    Pipeline.withArrays_of_ne spec0 c (V0 m c) _ main_v3 (by exact (by decide : ∀ w, Pipeline.arrRef spec0 w ≠ main_v3))
  have h5 : Pipeline.withArrays spec0 c (V0 m c) (fun w => (dats m 0 c).arrAt w cfg0.N) (Proc.devRef .tc main_v5)
      = V m c main_v5 :=
    Pipeline.withArrays_of_ne spec0 c (V0 m c) _ main_v5 (by exact (by decide : ∀ w, Pipeline.arrRef spec0 w ≠ main_v5))
  unfold Pipeline.afterTail₀
  show StableHlo.after hostOps1 (Pipeline.withArrays spec0 c (V0 m c) (fun w => (dats m 0 c).arrAt w cfg0.N))
    (Proc.devRef .tc main_v85) = _
  host_results
  rw [h68, h1, h3, h5]
  rfl

set_option maxHeartbeats 4000000 in
/-- THE RESULT BUFFER after the run: `Simplex.result` of the argument arrays. -/
theorem result_eq (c : Dev nD) :
    Pipeline.afterTail₀ cfgs (dats m) 0 (V0 m) [hostOps1] c main_v85
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [tail_value, Whole.final, V_v59, V_v60, V_v61, V_v62, V_v63, V_v64, V_v65, V_v66, V_v67, V_v1, V_v3, V_v5]
  funext i
  obtain ⟨n, rfl⟩ : ∃ n : Fin 2000000, (i : S2000000.Idx) = ix1 n := ⟨i 0, eq_ix1 i⟩
  rw [tail_apply, result_apply]
  unfold weights hits
  simp only [Gout_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)),
    slot_apply (m ((c : Thread nD τ).loc main_arg1)) 0 (by decide),
    slot_apply (m ((c : Thread nD τ).loc main_arg1)) 1 (by decide),
    slot_apply (m ((c : Thread nD τ).loc main_arg1)) 2 (by decide), slot_zero, slot_one, slot_two]

/-- The run of the kernel program, read: its result at `Simplex.result` of the arguments, the arguments as launched. -/
theorem run : θ_run defs (onTc (τ := τ) (main (F := Ideal))) ⟨m, fun _ => 0, ρ⟩ fun r => ∀ c : Dev nD,
      r.2.mem ((c.tc : Thread nD τ).loc main_v85) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v85 (Pipeline.mem_restRefs_of main_v85 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Result

end
-- ==== Proof.LibGatherRows3.lean ====
/-
  A gather of whole rows named by a rank-3 array of index words, read at an entry.

  For a table `x` of `N` rows and `C` columns and index words `idx` of shape `[R, S, 1]`, the gather builds the array
  of shape `[R, S, C]` whose row `(r, s)` is the table's row `idx (r, s, 0)`, the word read as a signed integer and
  clamped into `[0, N − 1]`: entry `(r, s, c)` of the result is the table's entry at that row and column `c`.
-/
import Idealize.ShloMosaic.Lib.ValueIdx
import Idealize.ShloMosaic.Lib.Pipeline.Value

noncomputable section

namespace Cert.Lib.GatherRows3

open Idealize.ShloMosaic Idealize.ShloMosaic.ValueIdx

variable {α : Type}

/-- The dimension numbers of a gather of whole rows by a rank-3 index array: operand `[N, C]`, start indices
    `[R, S, 1]`, result `[R, S, C]`; the result's axis 2 is the offset axis, the operand's axis 0 is collapsed and is
    the one the start index names, the index vector lies along axis 2 of the start indices, and a slice is one row,
    `1 × C`. Their conditions `wf` are decided on literal shapes. -/
abbrev rowGather3Dims (N R S C : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- The table row that result row `(r, s)` reads: the word `idx (r, s, 0)` as a signed integer, negative values
    taken to `0`, then cut to at most `N − 1`. -/
def gatherRow3 (N : Nat) (hN : 0 < N) {R S w : Nat} (idx : IVec ⟨3, ![R, S, 1]⟩ w) (r : Fin R) (s : Fin S) : Fin N :=
  ⟨min (idx (ix3 r s (0 : Fin 1))).toInt.toNat (N - 1), by omega⟩

/-- On the row axis the operand index of result entry `(r, s, c)` is the clamped start index. -/
theorem operandIdx_zero {N R S C w : Nat}
    (wf : GatherDims.WF ⟨2, ![N, C]⟩ ⟨3, ![R, S, 1]⟩ ⟨3, ![R, S, C]⟩ [2] [0] [] [0] [] 2 ![1, C])
    (idx : IVec ⟨3, ![R, S, 1]⟩ w) (r : Fin R) (s : Fin S) (c : Fin C) :
    ((rowGather3Dims N R S C wf).operandIdx (ix3 r s c) idx 0).val
      = min (idx (ix3 r s (0 : Fin 1))).toInt.toNat (N - 1) := by
  show (rowGather3Dims N R S C wf).start (ix3 r s c) idx 0 + (rowGather3Dims N R S C wf).batchCoord (ix3 r s c) 0
    + (rowGather3Dims N R S C wf).offCoord (ix3 r s c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather3Dims N R S C wf).startIndexMap from List.mem_singleton.mpr rfl)]
  have hsi : (rowGather3Dims N R S C wf).siIdx (ix3 r s c)
      ⟨List.idxOf (0 : Fin 2) (rowGather3Dims N R S C wf).startIndexMap,
        List.idxOf_lt_length_iff.2 (List.mem_singleton.mpr rfl)⟩ = ix3 r s (0 : Fin 1) := by
    funext b; refine Fin.ext ?_
    match b with
    | ⟨0, _⟩ => rfl
    | ⟨1, _⟩ => rfl
    | ⟨2, _⟩ => rfl
  rw [hsi]
  rfl

/-- On the column axis the operand index of result entry `(r, s, c)` is `c`. -/
theorem operandIdx_one {N R S C w : Nat}
    (wf : GatherDims.WF ⟨2, ![N, C]⟩ ⟨3, ![R, S, 1]⟩ ⟨3, ![R, S, C]⟩ [2] [0] [] [0] [] 2 ![1, C])
    (idx : IVec ⟨3, ![R, S, 1]⟩ w) (r : Fin R) (s : Fin S) (c : Fin C) :
    ((rowGather3Dims N R S C wf).operandIdx (ix3 r s c) idx 1).val = c.val := by
  show (rowGather3Dims N R S C wf).start (ix3 r s c) idx 1 + (rowGather3Dims N R S C wf).batchCoord (ix3 r s c) 1
    + (rowGather3Dims N R S C wf).offCoord (ix3 r s c) 1 = _
  rw [GatherDims.batchCoord_eq_zero _ _ _ List.not_mem_nil]
  have hs : (rowGather3Dims N R S C wf).start (ix3 r s c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER READ AT `(r, s, c)`: the table at row `gatherRow3 N hN idx r s` and column `c`. -/
theorem gather_rows3_apply {N R S C w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (c : Fin C) :
    Host.gather (rowGather3Dims N R S C wf) x idx (ix3 r s c) = x (ix2 (gatherRow3 N hN idx r s) c) := by
  unfold Host.gather
  congr 1
  funext a
  match a with
  | ⟨0, _⟩ => exact Fin.ext (operandIdx_zero wf idx r s c)
  | ⟨1, _⟩ => exact Fin.ext (operandIdx_one wf idx r s c)

end Cert.Lib.GatherRows3

end
-- ==== Proof.ReferenceValue.lean ====
/-
  What the reference computes, at a point.

  The reference gathers, for every simplex and vertex slot, the named point's two coordinates (index words wrapped,
  then clamped by the gather), flattens them to six features per simplex, applies four dense layers each followed by
  `1 / (1 + exp (−z))` — on the extended reals the logistic function itself, once the word `0x3F800000` is read as
  one —, flattens the 4000000 x 3 weights row by row, and scatter-adds them into a column of zeros by the flattened
  RAW index words. Read at point `n` that is the sum, over the flattened positions whose word is `n`, of the weight
  there; regrouped slot by slot (`Simplex.sum_pairs`) it is `Simplex.weights`.
-/
import proofs.«125010_j69853348102547_2_alg».proof.Proof.Gen.ReferenceIdeal.Read
import proofs.«125010_j69853348102547_2_alg».proof.Proof.SimplexResult
import proofs.«125010_j69853348102547_2_alg».proof.Proof.LibGatherRows3
import proofs.«125010_j69853348102547_2_alg».proof.Proof.LibScatter1
import Idealize.ShloMosaic.Lib.IdealHost

set_option maxRecDepth 16384

noncomputable section

namespace Cert.ReferenceIdeal.RefValue

open Cert.ReferenceIdeal Cert.ReferenceIdeal.Gen Cert.ReferenceIdeal.Read Cert.Simplex
open Idealize.ShloMosaic Idealize.ShloMosaic.ValueIdx Idealize.ShloMosaic.TcCoe Idealize.SL.Sem
open Cert.Lib.RowScatter Cert.Lib.Scatter1 Cert.Lib.GatherRows3

variable (P : (⟨S2000000x2, .f32⟩ : BufTy).Contents (Elt Ideal)) (A : (⟨S4000000x3, .i32⟩ : BufTy).Contents (Elt Ideal))
  (W1 : (⟨S6x8, .f32⟩ : BufTy).Contents (Elt Ideal)) (b1 : (⟨S8, .f32⟩ : BufTy).Contents (Elt Ideal))
  (W2 : (⟨S8x8, .f32⟩ : BufTy).Contents (Elt Ideal)) (b2 : (⟨S8, .f32⟩ : BufTy).Contents (Elt Ideal))
  (W3 : (⟨S8x8, .f32⟩ : BufTy).Contents (Elt Ideal)) (b3 : (⟨S8, .f32⟩ : BufTy).Contents (Elt Ideal))
  (W4 : (⟨S8x3, .f32⟩ : BufTy).Contents (Elt Ideal)) (b4 : (⟨S3, .f32⟩ : BufTy).Contents (Elt Ideal))

/-- The host's `1 / (1 + exp (−z))`, with the word of one, is the logistic function. -/
theorem host_sigmoid (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [Ideal.ofBits_one_f32]
  rfl

/-- The wrapped index word of the reference. -/
theorem wrap_eq (i : S4000000x3.Idx) : val_main_v4 (F := Ideal) A i = wrap (A i) := by
  rw [val_main_v4_apply, val_main_v1_apply, val_main_v3_apply, val_main_v0_apply, val_main_v2_apply, val_main_c_apply,
    val_main_c_0_apply]
  rfl

/-- Feature `k` of simplex `e` in the reference's flattened gather. -/
theorem feat_eq (e : Fin 4000000) (k : Fin 6) : val_main_v7 (F := Ideal) P A (ix2 e k) = feat P A e k := by
  rw [val_main_v7_apply]
  have hk := k.isLt
  have hi : idx_main_v7 (ix2 e k) = ix3 e (⟨k.val / 2, by omega⟩ : Fin 3) (⟨k.val % 2, by omega⟩ : Fin 2) := by
    funext a; apply Fin.ext
    match a with
    | ⟨0, _⟩ => show (e.val * 6 + k.val) / 6 = e.val; omega
    | ⟨1, _⟩ => show (e.val * 6 + k.val) / 2 % 3 = k.val / 2; omega
    | ⟨2, _⟩ => show (e.val * 6 + k.val) % 2 = k.val % 2; omega
  rw [hi]
  unfold val_main_v6
  refine (gather_rows3_apply (N := 2000000) (R := 4000000) (S := 3) (C := 2) (by decide)
    gather_S2000000x2_S4000000x3x1_S4000000x3x2_2_0_n_n_0_2_12_wf P _ e _ _).trans ?_
  unfold feat
  refine congrArg (fun r => P (ix2 r _)) (Fin.ext ?_)
  show min (val_main_v5 (F := Ideal) A (ix3 e (⟨k.val / 2, by omega⟩ : Fin 3) (0 : Fin 1))).toInt.toNat (2000000 - 1)
    = min (wrap (A (ix2 e (⟨k.val / 2, by omega⟩ : Fin 3)))).toInt.toNat (2000000 - 1)
  have h5 : idx_main_v5 (ix3 e (⟨k.val / 2, by omega⟩ : Fin 3) (0 : Fin 1)) = ix2 e (⟨k.val / 2, by omega⟩ : Fin 3) :=
    funext fun a => Fin.ext (by match a with | ⟨0, _⟩ => rfl | ⟨1, _⟩ => rfl)
  rw [val_main_v5_apply, wrap_eq, h5]

/-- Layer 1 of the reference at `(e, o)`. -/
theorem layer1_eq (e : Fin 4000000) (o : Fin 8) :
    val_main_v17 (F := Ideal) P A W1 b1 (ix2 e o) = layer (fun k o => W1 (ix2 k o)) (fun o => b1 (ix1 o)) (feat P A e) o := by
  rw [val_main_v17_apply, val_main_v16_apply, val_main_cst_1_apply, val_main_v15_apply, val_main_v14_apply,
    val_main_cst_apply, val_main_v13_apply, val_main_v12_apply, val_main_v11_apply, val_main_v8_apply,
    val_main_v10_apply, val_main_v9_apply]
  refine (host_sigmoid _).trans ?_
  unfold layer
  refine congrArg Ideal.logistic ?_
  show (_ : EReal) + _ = _ + _
  refine congrArg₂ (· + ·) (Finset.sum_congr rfl fun k _ => ?_) ?_
  · have hl : lidx_main_v8 (ix2 e o) k = ix2 e k :=
      funext fun a => Fin.ext (by match a with | ⟨0, _⟩ => rfl | ⟨1, _⟩ => rfl)
    have hr : ridx_main_v8 (ix2 e o) k = ix2 k o :=
      funext fun a => Fin.ext (by match a with | ⟨0, _⟩ => rfl | ⟨1, _⟩ => rfl)
    rw [hl, hr, feat_eq]
  · exact congrArg b1 (funext fun a => Fin.ext (by match a with | ⟨0, _⟩ => rfl))

/-- Layer 2 of the reference at `(e, o)`. -/
theorem layer2_eq (e : Fin 4000000) (o : Fin 8) :
    val_main_v27 (F := Ideal) P A W1 b1 W2 b2 (ix2 e o) = layer (fun k o => W2 (ix2 k o)) (fun o => b2 (ix1 o)) (layer (fun k o => W1 (ix2 k o)) (fun o => b1 (ix1 o)) (feat P A e)) o := by
  rw [val_main_v27_apply, val_main_v26_apply, val_main_cst_3_apply, val_main_v25_apply, val_main_v24_apply,
    val_main_cst_2_apply, val_main_v23_apply, val_main_v22_apply, val_main_v21_apply, val_main_v18_apply,
    val_main_v20_apply, val_main_v19_apply]
  refine (host_sigmoid _).trans ?_
  unfold layer
  refine congrArg Ideal.logistic ?_
  show (_ : EReal) + _ = _ + _
  refine congrArg₂ (· + ·) (Finset.sum_congr rfl fun k _ => ?_) ?_
  · have hl : lidx_main_v18 (ix2 e o) k = ix2 e k :=
      funext fun a => Fin.ext (by match a with | ⟨0, _⟩ => rfl | ⟨1, _⟩ => rfl)
    have hr : ridx_main_v18 (ix2 e o) k = ix2 k o :=
      funext fun a => Fin.ext (by match a with | ⟨0, _⟩ => rfl | ⟨1, _⟩ => rfl)
    rw [hl, hr, layer1_eq]
    rfl
  · exact congrArg b2 (funext fun a => Fin.ext (by match a with | ⟨0, _⟩ => rfl))

/-- Layer 3 of the reference at `(e, o)`. -/
theorem layer3_eq (e : Fin 4000000) (o : Fin 8) :
    val_main_v37 (F := Ideal) P A W1 b1 W2 b2 W3 b3 (ix2 e o) = layer (fun k o => W3 (ix2 k o)) (fun o => b3 (ix1 o)) (layer (fun k o => W2 (ix2 k o)) (fun o => b2 (ix1 o)) (layer (fun k o => W1 (ix2 k o)) (fun o => b1 (ix1 o)) (feat P A e))) o := by
  rw [val_main_v37_apply, val_main_v36_apply, val_main_cst_5_apply, val_main_v35_apply, val_main_v34_apply,
    val_main_cst_4_apply, val_main_v33_apply, val_main_v32_apply, val_main_v31_apply, val_main_v28_apply,
    val_main_v30_apply, val_main_v29_apply]
  refine (host_sigmoid _).trans ?_
  unfold layer
  refine congrArg Ideal.logistic ?_
  show (_ : EReal) + _ = _ + _
  refine congrArg₂ (· + ·) (Finset.sum_congr rfl fun k _ => ?_) ?_
  · have hl : lidx_main_v28 (ix2 e o) k = ix2 e k :=
      funext fun a => Fin.ext (by match a with | ⟨0, _⟩ => rfl | ⟨1, _⟩ => rfl)
    have hr : ridx_main_v28 (ix2 e o) k = ix2 k o :=
      funext fun a => Fin.ext (by match a with | ⟨0, _⟩ => rfl | ⟨1, _⟩ => rfl)
    rw [hl, hr, layer2_eq]
    rfl
  · exact congrArg b3 (funext fun a => Fin.ext (by match a with | ⟨0, _⟩ => rfl))

/-- Layer 4 of the reference at `(e, o)`. -/
theorem layer4_eq (e : Fin 4000000) (o : Fin 3) :
    val_main_v47 (F := Ideal) P A W1 b1 W2 b2 W3 b3 W4 b4 (ix2 e o) = layer (fun k o => W4 (ix2 k o)) (fun o => b4 (ix1 o)) (layer (fun k o => W3 (ix2 k o)) (fun o => b3 (ix1 o)) (layer (fun k o => W2 (ix2 k o)) (fun o => b2 (ix1 o)) (layer (fun k o => W1 (ix2 k o)) (fun o => b1 (ix1 o)) (feat P A e)))) o := by
  rw [val_main_v47_apply, val_main_v46_apply, val_main_cst_7_apply, val_main_v45_apply, val_main_v44_apply,
    val_main_cst_6_apply, val_main_v43_apply, val_main_v42_apply, val_main_v41_apply, val_main_v38_apply,
    val_main_v40_apply, val_main_v39_apply]
  refine (host_sigmoid _).trans ?_
  unfold layer
  refine congrArg Ideal.logistic ?_
  show (_ : EReal) + _ = _ + _
  refine congrArg₂ (· + ·) (Finset.sum_congr rfl fun k _ => ?_) ?_
  · have hl : lidx_main_v38 (ix2 e o) k = ix2 e k :=
      funext fun a => Fin.ext (by match a with | ⟨0, _⟩ => rfl | ⟨1, _⟩ => rfl)
    have hr : ridx_main_v38 (ix2 e o) k = ix2 k o :=
      funext fun a => Fin.ext (by match a with | ⟨0, _⟩ => rfl | ⟨1, _⟩ => rfl)
    rw [hl, hr, layer3_eq]
    rfl
  · exact congrArg b4 (funext fun a => Fin.ext (by match a with | ⟨0, _⟩ => rfl))

/-- THE REFERENCE'S RESULT AT POINT `n`. -/
theorem ref_apply (n : Fin 2000000) :
    val_main_v52 (F := Ideal) P A W1 b1 W2 b2 W3 b3 W4 b4 (ix1 n) = weights P A W1 b1 W2 b2 W3 b3 W4 b4 n := by
  unfold val_main_v52
  refine (scatterAdd1_apply (N := 2000000) (M := 12000000) scatter_S2000000_S12000000x1_S12000000_n_0_0_1_wf _ _ _ n).trans ?_
  have hz : val_main_v50 (F := Ideal) (ix1 n) = (0 : EReal) := by
    rw [val_main_v50_apply, val_main_cst_8_apply]; exact Ideal.ofBits_zero_f32
  rw [hz, zero_add]
  unfold landsOn
  have hidx : ∀ k : Fin 12000000, val_main_v51 (F := Ideal) A (ix2 k (0 : Fin 1))
      = A (ix2 (pairEquiv.symm k).1 (pairEquiv.symm k).2) := fun k => by
    rw [val_main_v51_apply, val_main_v49_apply]
    exact congrArg A (funext fun a => Fin.ext (by match a with | ⟨0, _⟩ => rfl | ⟨1, _⟩ => rfl))
  have hupd : ∀ k : Fin 12000000, val_main_v48 (F := Ideal) P A W1 b1 W2 b2 W3 b3 W4 b4 (ix1 k)
      = mlp P A W1 b1 W2 b2 W3 b3 W4 b4 (pairEquiv.symm k).1 (pairEquiv.symm k).2 := fun k => by
    rw [val_main_v48_apply]
    have hi : idx_main_v48 (ix1 k) = ix2 (pairEquiv.symm k).1 (pairEquiv.symm k).2 :=
      funext fun a => Fin.ext (by match a with | ⟨0, _⟩ => rfl | ⟨1, _⟩ => rfl)
    rw [hi, layer4_eq]
    rfl
  rw [Finset.filter_congr (fun k _ => by rw [hidx k]), Finset.sum_congr rfl (fun k _ => hupd k)]
  exact sum_pairs (fun e j => (A (ix2 e j)).toInt = (n.val : Int)) (fun e j => mlp P A W1 b1 W2 b2 W3 b3 W4 b4 e j)

/-- The reference's result is `Simplex.result` of the arguments. -/
theorem ref_eq : val_main_v52 (F := Ideal) P A W1 b1 W2 b2 W3 b3 W4 b4 = result P A W1 b1 W2 b2 W3 b3 W4 b4 := by
  funext i
  obtain ⟨n, rfl⟩ : ∃ n : Fin 2000000, i = ix1 n := ⟨i 0, eq_ix1 i⟩
  exact ref_apply P A W1 b1 W2 b2 W3 b3 W4 b4 n

end Cert.ReferenceIdeal.RefValue

end
-- ==== Proof.lean ====
/-
  The certificate of the mesh-weight kernel against its reference.

  Both programs take 2000000 points in the plane, 4000000 simplices naming three points each, and the weights of a
  four-layer network 6 → 8 → 8 → 8 → 3 with a logistic function after every layer. Each simplex's six point coordinates
  go through the network, which gives it one weight per vertex slot; every point collects the weights of the slots
  that name it (`Simplex.weights`).

  The kernel program gathers the coordinates on the host, feature-major, runs the network in one region over 25
  blocks of 160000 simplices, and scatter-adds the three slots' weights separately before adding the three columns.
  The reference gathers whole rows, runs the network simplex-major with `1 / (1 + exp (−z))` spelt out, and scatter-adds
  the 12000000 flattened weights once. On the extended reals the two results are one function of the arguments: a
  change of float format is the identity, products commute, the spelt-out expression is the logistic function, and a
  finite sum may be regrouped. None of these laws needs the inputs finite, so the precondition is not opened.

  * The frames of the two kernel programs: `Region.frame` (the region's body run by the symbolic executor, the launch
    theorem for a region with host operations on both sides). The reference's frame is its generated run with the
    result dropped.
  * No operation was rewritten when the kernel was idealized, so there is nothing to preserve.
  * The two results agree: `KernelIdeal.Result.run` and the reference's generated run with `RefValue.ref_eq`, both
    at `Simplex.result` of the arguments.
-/
import proofs.«125010_j69853348102547_2_alg».proof.Defs
import proofs.«125010_j69853348102547_2_alg».proof.Proof.Gen.Kernel
import proofs.«125010_j69853348102547_2_alg».proof.Proof.Gen.KernelIdeal
import proofs.«125010_j69853348102547_2_alg».proof.Proof.Gen.ReferenceIdeal
import proofs.«125010_j69853348102547_2_alg».proof.Proof.Gen.Pre_finite_inputs
import proofs.«125010_j69853348102547_2_alg».proof.Proof.Gen.ReferenceIdeal.Run
import proofs.«125010_j69853348102547_2_alg».proof.Proof.Gen.ReferenceIdeal.Read
import proofs.«125010_j69853348102547_2_alg».proof.Proof.KernelRegion
import proofs.«125010_j69853348102547_2_alg».proof.Proof.KernelIdealRegion
import proofs.«125010_j69853348102547_2_alg».proof.Proof.KernelIdealResult
import proofs.«125010_j69853348102547_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Region.frame m ρ

theorem frame_ki : Cert.frame_KernelIdeal (hKernelIdeal := Cert.KernelIdeal.Gen.facts) (hPre_finite_inputs := Cert.Pre_finite_inputs.Gen.facts) :=
  fun m ρ _ => Cert.KernelIdeal.Region.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with their result at `Simplex.result` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v52_eq, Cert.ReferenceIdeal.RefValue.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
